-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S128x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S16x32 .f32) (main_arg6 : FVec F S32 .f32) (main_arg7 : FVec F S32x64 .f32) (main_arg8 : FVec F S64 .f32) (main_arg9 : FVec F S128x64 .f32) (main_arg10 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000 .f32) (main_arg3 : FVec F S64x16 .f32) (main_arg4 : FVec F S16 .f32) (main_arg5 : FVec F S16x32 .f32) (main_arg6 : FVec F S32 .f32) (main_arg7 : FVec F S32x64 .f32) (main_arg8 : FVec F S64 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x64 : Shape := ⟨2, ![128, 64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x16 : Shape := ⟨2, ![1, 16]⟩
abbrev S50000x16 : Shape := ⟨2, ![50000, 16]⟩
abbrev S5000x64 : Shape := ⟨2, ![5000, 64]⟩
abbrev S5000x16 : Shape := ⟨2, ![5000, 16]⟩
abbrev S850000x16 : Shape := ⟨2, ![850000, 16]⟩
abbrev S1x32 : Shape := ⟨2, ![1, 32]⟩
abbrev S50000x32 : Shape := ⟨2, ![50000, 32]⟩
abbrev S5000x32 : Shape := ⟨2, ![5000, 32]⟩
abbrev S850000x32 : Shape := ⟨2, ![850000, 32]⟩
abbrev S1x64 : Shape := ⟨2, ![1, 64]⟩
abbrev S850000x64 : Shape := ⟨2, ![850000, 64]⟩
abbrev S50000x128 : Shape := ⟨2, ![50000, 128]⟩
abbrev S5000x128 : Shape := ⟨2, ![5000, 128]⟩

abbrev nBuf : Space → Nat
  | .hbm => 134
  | .vmem => 24
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .f32⟩
  | 54 => ⟨S16, .f32⟩
  | 55 => ⟨S1x16, .f32⟩
  | 56 => ⟨S50000x16, .f32⟩
  | 57 => ⟨S850000x1, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x16, .f32⟩
  | 67 => ⟨S850000x16, .f32⟩
  | 68 => ⟨S850000x16, .f32⟩
  | 69 => ⟨S_, .f32⟩
  | 70 => ⟨S50000x16, .f32⟩
  | 71 => ⟨S850000x1, .i32⟩
  | 72 => ⟨S50000x16, .f32⟩
  | 73 => ⟨S1x16, .f32⟩
  | 74 => ⟨S50000x16, .f32⟩
  | 75 => ⟨S50000x16, .f32⟩
  | 76 => ⟨S_, .f32⟩
  | 77 => ⟨S50000x16, .f32⟩
  | 78 => ⟨S50000x16, .f32⟩
  | 79 => ⟨S_, .f32⟩
  | 80 => ⟨S32, .f32⟩
  | 81 => ⟨S1x32, .f32⟩
  | 82 => ⟨S50000x32, .f32⟩
  | 83 => ⟨S850000x1, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x32, .f32⟩
  | 93 => ⟨S850000x32, .f32⟩
  | 94 => ⟨S850000x32, .f32⟩
  | 95 => ⟨S_, .f32⟩
  | 96 => ⟨S50000x32, .f32⟩
  | 97 => ⟨S850000x1, .i32⟩
  | 98 => ⟨S50000x32, .f32⟩
  | 99 => ⟨S1x32, .f32⟩
  | 100 => ⟨S50000x32, .f32⟩
  | 101 => ⟨S50000x32, .f32⟩
  | 102 => ⟨S_, .f32⟩
  | 103 => ⟨S50000x32, .f32⟩
  | 104 => ⟨S50000x32, .f32⟩
  | 105 => ⟨S_, .f32⟩
  | 106 => ⟨S64, .f32⟩
  | 107 => ⟨S1x64, .f32⟩
  | 108 => ⟨S50000x64, .f32⟩
  | 109 => ⟨S850000x1, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .f32⟩
  | 3 => ⟨S50000x128, .f32⟩
  | 4 => ⟨S1x64, .f32⟩
  | 5 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_cst : Ref sig .tc := ⟨.hbm, 102, rfl⟩
abbrev main_call2_v0 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S16 : S_.BroadcastsInDim S16 (![] : Fin 0 → Fin S16.rank)
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S32 : S_.BroadcastsInDim S32 (![] : Fin 0 → Fin S32.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S64 : S_.BroadcastsInDim S64 (![] : Fin 0 → Fin S64.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S5000x16_S16x32_S5000x32_1_0_0_1_n_n_wf : DotDims.WF S5000x16 S16x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x64_S5000x64_1_0_0_1_n_n_wf : DotDims.WF S5000x32 S32x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S50000x16.size a
  hwx0_3 : ∀ i : grid0.Coords, EltTy.bits .f32 = 32 ∨ (Rect.block (s := S50000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S128x64 : Shape := ⟨2, ![128, 64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x16 : Shape := ⟨2, ![50000, 16]⟩
abbrev S850000x1 : Shape := ⟨2, ![850000, 1]⟩
abbrev S850000x16 : Shape := ⟨2, ![850000, 16]⟩
abbrev S1x16 : Shape := ⟨2, ![1, 16]⟩
abbrev S50000x32 : Shape := ⟨2, ![50000, 32]⟩
abbrev S850000x32 : Shape := ⟨2, ![850000, 32]⟩
abbrev S1x32 : Shape := ⟨2, ![1, 32]⟩
abbrev S850000x64 : Shape := ⟨2, ![850000, 64]⟩
abbrev S1x64 : Shape := ⟨2, ![1, 64]⟩
abbrev S50000x128 : Shape := ⟨2, ![50000, 128]⟩

abbrev nBuf : Space → Nat
  | .hbm => 191
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S64x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S128x64, .f32⟩
  | 10 => ⟨S64, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S50000x16, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S850000x1, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x16, .f32⟩
  | 64 => ⟨S850000x16, .f32⟩
  | 65 => ⟨S850000x16, .f32⟩
  | 66 => ⟨S_, .f32⟩
  | 67 => ⟨S50000x16, .f32⟩
  | 68 => ⟨S850000x1, .i32⟩
  | 69 => ⟨S50000x16, .f32⟩
  | 70 => ⟨S1x16, .f32⟩
  | 71 => ⟨S50000x16, .f32⟩
  | 72 => ⟨S50000x16, .f32⟩
  | 73 => ⟨S_, .f32⟩
  | 74 => ⟨S50000x16, .f32⟩
  | 75 => ⟨S50000x16, .f32⟩
  | 76 => ⟨S50000x32, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S850000x1, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x32, .f32⟩
  | 119 => ⟨S850000x32, .f32⟩
  | 120 => ⟨S850000x32, .f32⟩
  | 121 => ⟨S_, .f32⟩
  | 122 => ⟨S50000x32, .f32⟩
  | 123 => ⟨S850000x1, .i32⟩
  | 124 => ⟨S50000x32, .f32⟩
  | 125 => ⟨S1x32, .f32⟩
  | 126 => ⟨S50000x32, .f32⟩
  | 127 => ⟨S50000x32, .f32⟩
  | _ => ⟨S50000x64, .f32⟩

abbrev hbmTy0_1 (i : Nat) : BufTy := match i % 128 with
  | 0 => ⟨S_, .f32⟩
  | 1 => ⟨S50000x32, .f32⟩
  | 2 => ⟨S50000x32, .f32⟩
  | 3 => ⟨S50000x64, .f32⟩
  | 4 => ⟨S_, .f32⟩
  | 5 => ⟨S50000, .f32⟩
  | 6 => ⟨S850000x1, .i32⟩
  | 7 => ⟨S50000, .f32⟩
  | 8 => ⟨S_, .f32⟩
  | 9 => ⟨S50000, .f32⟩
  | 10 => ⟨S50000, .i1⟩
  | 11 => ⟨S50000, .f32⟩
  | 12 => ⟨S_, .f32⟩
  | 13 => ⟨S_, .f32⟩
  | 14 => ⟨S50000, .f32⟩
  | 15 => ⟨S50000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000, .f32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S850000x1, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x128, .f32⟩
  | 59 => ⟨S50000x64, .f32⟩
  | 60 => ⟨S1x64, .f32⟩
  | 61 => ⟨S50000x64, .f32⟩
  | 62 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call3_cst : Ref sig .tc := ⟨.hbm, 128, rfl⟩
abbrev main_call3_v0 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_call4_v0 : Ref sig .tc := ⟨.hbm, 141, rfl⟩
abbrev main_call4_v1 : Ref sig .tc := ⟨.hbm, 142, rfl⟩
abbrev main_v98 : Ref sig .tc := ⟨.hbm, 143, rfl⟩
abbrev main_c_22 : Ref sig .tc := ⟨.hbm, 144, rfl⟩
abbrev main_v99 : Ref sig .tc := ⟨.hbm, 145, rfl⟩
abbrev main_v100 : Ref sig .tc := ⟨.hbm, 146, rfl⟩
abbrev main_c_23 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_24 : Ref sig .tc := ⟨.hbm, 154, rfl⟩
abbrev main_v107 : Ref sig .tc := ⟨.hbm, 155, rfl⟩
abbrev main_v108 : Ref sig .tc := ⟨.hbm, 156, rfl⟩
abbrev main_c_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_26 : Ref sig .tc := ⟨.hbm, 165, rfl⟩
abbrev main_v116 : Ref sig .tc := ⟨.hbm, 166, rfl⟩
abbrev main_v117 : Ref sig .tc := ⟨.hbm, 167, rfl⟩
abbrev main_c_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_28 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_call5_cst : Ref sig .tc := ⟨.hbm, 183, rfl⟩
abbrev main_call5_v0 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  dot_S50000x64_S64x16_S50000x16_1_0_0_1_n_n_wf : DotDims.WF S50000x64 S64x16 S50000x16 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S50000x16_S16x32_S50000x32_1_0_0_1_n_n_wf : DotDims.WF S50000x16 S16x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x128_S128x64_S50000x64_1_0_0_1_n_n_wf : DotDims.WF S50000x128 S128x64 S50000x64 [1] [0] [0] [1] [] []

variable [Facts₀]

def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.WholeRun.lean ====
/-
  The idealized kernel's whole run, with every buffer named at the end.

  @main is sixteen segments: four row-tiled linear layers, each entered after a stretch of host operations. The buffer
  contents at each segment boundary are a fold from the launch memory: a host stretch applies its operations in order,
  a layer leaves its output array at what its ten blocks wrote back and every other buffer as it found it. Every weakly
  fair execution terminates, nothing faulting, with every unscoped buffer at the last boundary's contents: so the
  result array is the last layer's output, and each argument array is as launched.
-/
import proofs.«104778_j50113678409912_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold through the sixteen segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The same run read at the result array and at the eleven argument arrays: the result is the last boundary's contents
    of the fourth layer's output array, the arguments are as launched. -/
theorem run_result : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)
    (run_all m ρ)

end Cert.KernelIdeal.Whole

end
-- ==== Proof.Layer0.lean ====
/-
  The first linear layer as one function of the arrays it is entered with.

  The layer multiplies a [50000, 64] array by a [64, 16] weight and adds a [1, 16] row, ten blocks of 5000 rows at a
  time: block `t` of the output is the product of block `t` of the left operand with the whole weight, plus the row
  repeated down the block. Over the extended reals a change of float format is the identity and the matrix unit's
  product into a zero accumulator is the plain sum over the contracted axis, so an output entry depends only on its own row
  of the left operand and its own column of the weight and of the added row:
      out[r, c] = Σ_k x[r, k] · w[k, c] + b[0, c].
  The ten blocks tile the output's rows (row r lies in block r / 5000), so the whole output array is that function.
-/
import proofs.«104778_j50113678409912_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.SL.Sem
open Idealize.ShloMosaic.Pipeline (Dat)

/-! ## The layer's function -/

/-- Entry (r, k) of the left operand, for the output entry `i` = (r, c). -/
abbrev lrow (i : S50000x16.Idx) (k : Fin 64) : S50000x64.Idx := fun a => match a with
  | ⟨0, _⟩ => ⟨(i 0).val, (i 0).isLt⟩
  | ⟨1, _⟩ => ⟨k.val, k.isLt⟩
/-- Entry (k, c) of the weight. -/
abbrev wcol (i : S50000x16.Idx) (k : Fin 64) : S64x16.Idx := fun a => match a with
  | ⟨0, _⟩ => ⟨k.val, k.isLt⟩
  | ⟨1, _⟩ => ⟨(i 1).val, (i 1).isLt⟩
/-- Entry (0, c) of the added row. -/
abbrev bcol (i : S50000x16.Idx) : S1x16.Idx := fun a => match a with
  | ⟨0, _⟩ => ⟨0, Nat.one_pos⟩
  | ⟨1, _⟩ => ⟨(i 1).val, (i 1).isLt⟩

/-- out[r, c] = Σ_k x[r, k] · w[k, c] + b[0, c]. -/
def lin (X : FVec Ideal S50000x64 .f32) (Wt : FVec Ideal S64x16 .f32) (B : FVec Ideal S1x16 .f32) : FVec Ideal S50000x16 .f32 :=
  fun i => (∑ k : Fin 64, X (lrow i k) * Wt (wcol i k)) + B (bcol i)

/-- The layer's function at an entry. -/
theorem lin_apply (X : FVec Ideal S50000x64 .f32) (Wt : FVec Ideal S64x16 .f32) (B : FVec Ideal S1x16 .f32) (i : S50000x16.Idx) :
    lin X Wt B i = (∑ k : Fin 64, X (lrow i k) * Wt (wcol i k)) + B (bcol i) := rfl

/-- With a zero row added the layer is the plain product: x + 0 = x on the extended reals. -/
theorem lin_zero (X : FVec Ideal S50000x64 .f32) (Wt : FVec Ideal S64x16 .f32) (B : FVec Ideal S1x16 .f32) (hB : ∀ y, B y = 0) :
    lin X Wt B = fun i => ∑ k : Fin 64, X (lrow i k) * Wt (wcol i k) := by
  funext i
  rw [lin_apply, hB, add_zero]

/-! ## One block: the body's stored value at an index -/

/-- The same three entries inside one block of 5000 rows. -/
abbrev lrowB (j : S5000x16.Idx) (k : Fin 64) : S5000x64.Idx := fun a => match a with
  | ⟨0, _⟩ => ⟨(j 0).val, (j 0).isLt⟩
  | ⟨1, _⟩ => ⟨k.val, k.isLt⟩
abbrev wcolB (j : S5000x16.Idx) (k : Fin 64) : S64x16.Idx := fun a => match a with
  | ⟨0, _⟩ => ⟨k.val, k.isLt⟩
  | ⟨1, _⟩ => ⟨(j 1).val, (j 1).isLt⟩
abbrev bcolB (j : S5000x16.Idx) : S1x16.Idx := fun a => match a with
  | ⟨0, _⟩ => ⟨0, Nat.one_pos⟩
  | ⟨1, _⟩ => ⟨(j 1).val, (j 1).isLt⟩

theorem lhs_0 (j : S5000x16.Idx) (q : dot_S5000x64_S64x16_S5000x16_1_0_0_1_n_n.contr.Idx) :
    (dot_S5000x64_S64x16_S5000x16_1_0_0_1_n_n.lhsIdx j q 0).val = (j 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_1 (j : S5000x16.Idx) (q : dot_S5000x64_S64x16_S5000x16_1_0_0_1_n_n.contr.Idx) :
    (dot_S5000x64_S64x16_S5000x16_1_0_0_1_n_n.lhsIdx j q 1).val = (q ⟨0, by decide⟩).val :=
  dot_S5000x64_S64x16_S5000x16_1_0_0_1_n_n.lhsIdx_val_of_single rfl j q
theorem rhs_0 (j : S5000x16.Idx) (q : dot_S5000x64_S64x16_S5000x16_1_0_0_1_n_n.contr.Idx) :
    (dot_S5000x64_S64x16_S5000x16_1_0_0_1_n_n.rhsIdx j q 0).val = (q ⟨0, by decide⟩).val :=
  dot_S5000x64_S64x16_S5000x16_1_0_0_1_n_n.rhsIdx_val_of_single rfl j q
theorem rhs_1 (j : S5000x16.Idx) (q : dot_S5000x64_S64x16_S5000x16_1_0_0_1_n_n.contr.Idx) :
    (dot_S5000x64_S64x16_S5000x16_1_0_0_1_n_n.rhsIdx j q 1).val = (j 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The matrix unit's product of two blocks into a zero accumulator, at an entry: the sum over the contracted axis. -/
theorem prod_apply (a : FVec Ideal S5000x64 .bf16) (b : FVec Ideal S64x16 .bf16) (j : S5000x16.Idx) :
    matmul dot_S5000x64_S64x16_S5000x16_1_0_0_1_n_n none a b (constant S5000x16 .f32 0x00000000#32) j
      = ∑ k : Fin 64, a (lrowB j k) * b (wcolB j k) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx j ((ValueIdx.contrEquiv1 dot_S5000x64_S64x16_S5000x16_1_0_0_1_n_n 64 rfl rfl).symm k) = lrowB j k := funext fun a => Fin.ext (by
    match a with
    | ⟨0, _⟩ => exact lhs_0 _ _
    | ⟨1, _⟩ => exact (lhs_1 _ _).trans hk)
  have er : dot_S5000x64_S64x16_S5000x16_1_0_0_1_n_n.rhsIdx j ((ValueIdx.contrEquiv1 dot_S5000x64_S64x16_S5000x16_1_0_0_1_n_n 64 rfl rfl).symm k) = wcolB j k := funext fun a => Fin.ext (by
    match a with
    | ⟨0, _⟩ => exact (rhs_0 _ _).trans hk
    | ⟨1, _⟩ => exact rhs_1 _ _)
  rw [el, er]

/-- The [1, 16] row repeated down a block, at an entry: the row's entry in that column. -/
theorem row_apply (x2 : FVec Ideal S1x16 .f32) (j : S5000x16.Idx) :
    broadcastTo S5000x16 (shapeCast S1x16 x2 shapeCasts_S1x16_S1x16) broadcasts_S1x16_S5000x16 j = x2 (bcolB j) := by
  rw [shapeCast_self]
  exact broadcastTo_apply x2 broadcasts_S1x16_S5000x16 j (bcolB j) (fun a => match a with
    | ⟨0, _⟩ => by show (0 : Nat) = if (1 : Nat) = 1 then 0 else _; rw [if_pos rfl]
    | ⟨1, _⟩ => by show (j 1).val = if (16 : Nat) = 1 then 0 else (j 1).val; rw [if_neg (by decide)])

/-- What the body stores, at an entry of the block: the product's sum plus the row's entry. -/
theorem stored_apply (x0 : FVec Ideal S5000x64 .f32) (x1 : FVec Ideal S64x16 .f32) (x2 : FVec Ideal S1x16 .f32) (j : S5000x16.Idx) :
    k0_pay1 (F := Ideal) x0 x1 x2 j = (∑ k : Fin 64, x0 (lrowB j k) * x1 (wcolB j k)) + x2 (bcolB j) := by
  unfold k0_pay1
  show addf (matmul dot_S5000x64_S64x16_S5000x16_1_0_0_1_n_n none (truncf .bf16 x0 bitsLt_bf16_f32) (truncf .bf16 x1 bitsLt_bf16_f32) (constant S5000x16 .f32 0x00000000#32)) (broadcastTo S5000x16 (shapeCast S1x16 x2 shapeCasts_S1x16_S1x16) broadcasts_S1x16_S5000x16) j = _
  exact congrArg₂ (· + ·) (prod_apply (truncf .bf16 x0 bitsLt_bf16_f32) (truncf .bf16 x1 bitsLt_bf16_f32) j) (row_apply x2 j)

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's blocks move down the rows together,
    the weight and the added row stay whole. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every block of rows is some grid point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The left operand's block at a point, at an entry, is the array's entry 5000 · (block index) rows further down. -/
theorem blk0_read (c : Dev nD) (t : Fin cfg0.N) (y : S5000x64.Idx) (i : S50000x64.Idx)
    (h0 : win0_0.index t (0 : Fin 2) * 5000 + 1 * (y 0).val = (i 0).val)
    (h1 : win0_0.index t (1 : Fin 2) * 64 + 1 * (y 1).val = (i 1).val) :
    (iblk0 V c 0 t : FVec Ideal S5000x64 .f32) y = V c main_arg0 i := by
  unfold iblk0
  rw [View.read_apply]
  show V c main_arg0 (((cfg0.win 0).blk t).view.emb y) = V c main_arg0 i
  refine congrArg (V c main_arg0) (funext fun a => Fin.ext ?_)
  match a with
  | ⟨0, _⟩ => exact h0
  | ⟨1, _⟩ => exact h1
/-- The weight's block is the whole weight. -/
theorem blk1_read (c : Dev nD) (t : Fin cfg0.N) (y : S64x16.Idx) (i : S64x16.Idx)
    (h0 : win0_1.index t (0 : Fin 2) * 64 + 1 * (y 0).val = (i 0).val)
    (h1 : win0_1.index t (1 : Fin 2) * 16 + 1 * (y 1).val = (i 1).val) :
    (iblk0 V c 1 t : FVec Ideal S64x16 .f32) y = V c main_arg3 i := by
  unfold iblk0
  rw [View.read_apply]
  show V c main_arg3 (((cfg0.win 1).blk t).view.emb y) = V c main_arg3 i
  refine congrArg (V c main_arg3) (funext fun a => Fin.ext ?_)
  match a with
  | ⟨0, _⟩ => exact h0
  | ⟨1, _⟩ => exact h1
/-- The added row's block is the whole row. -/
theorem blk2_read (c : Dev nD) (t : Fin cfg0.N) (y : S1x16.Idx) (i : S1x16.Idx)
    (h0 : win0_2.index t (0 : Fin 2) * 1 + 1 * (y 0).val = (i 0).val)
    (h1 : win0_2.index t (1 : Fin 2) * 16 + 1 * (y 1).val = (i 1).val) :
    (iblk0 V c 2 t : FVec Ideal S1x16 .f32) y = V c main_v33 i := by
  unfold iblk0
  rw [View.read_apply]
  show V c main_v33 (((cfg0.win 2).blk t).view.emb y) = V c main_v33 i
  refine congrArg (V c main_v33) (funext fun a => Fin.ext ?_)
  match a with
  | ⟨0, _⟩ => exact h0
  | ⟨1, _⟩ => exact h1

/-- What point `t` writes back is block `t` of the layer's function of the arrays as the layer finds them. -/
theorem flushed_eq (c : Dev nD) (t : Fin cfg0.N) :
    (dat0 V c).flushed 3 t = ((cfg0.win 3).blk t).view.read (Elt Ideal) (lin (V c main_arg0) (V c main_arg3) (V c main_v33)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x16) hz, View.ld_unit_zero (S := S1x16) hz]
  obtain ⟨e0, e1, e2, e3, e4, e5, e6, e7⟩ := idx_facts t
  funext j
  show k0_pay1 (F := Ideal) (iblk0 V c 0 t) (iblk0 V c 1 t) (iblk0 V c 2 t) j
    = lin (V c main_arg0) (V c main_arg3) (V c main_v33) (((cfg0.win 3).blk t).view.emb j)
  refine (stored_apply (iblk0 V c 0 t) (iblk0 V c 1 t) (iblk0 V c 2 t) j).trans ?_
  unfold lin
  have hj0 : (j 0).val < 5000 := (j 0).isLt
  have hj1 : (j 1).val < 16 := (j 1).isLt
  have r0 : ((((cfg0.win 3).blk t).view.emb j) 0).val = win0_3.index t (0 : Fin 2) * 5000 + 1 * (j 0).val := rfl
  have r1 : ((((cfg0.win 3).blk t).view.emb j) 1).val = win0_3.index t (1 : Fin 2) * 16 + 1 * (j 1).val := rfl
  refine congrArg₂ (· + ·) (Finset.sum_congr rfl fun k _ => congrArg₂ (· * ·) ?_ ?_) ?_
  · refine blk0_read V c t (lrowB j k) (lrow (((cfg0.win 3).blk t).view.emb j) k) ?_ ?_
    · show win0_0.index t (0 : Fin 2) * 5000 + 1 * (j 0).val = ((((cfg0.win 3).blk t).view.emb j) 0).val
      rw [r0, e0]
    · show win0_0.index t (1 : Fin 2) * 64 + 1 * k.val = k.val
      rw [e1]; omega
  · refine blk1_read V c t (wcolB j k) (wcol (((cfg0.win 3).blk t).view.emb j) k) ?_ ?_
    · show win0_1.index t (0 : Fin 2) * 64 + 1 * k.val = k.val
      rw [e2]; omega
    · show win0_1.index t (1 : Fin 2) * 16 + 1 * (j 1).val = ((((cfg0.win 3).blk t).view.emb j) 1).val
      rw [r1, e3, e7]
  · refine blk2_read V c t (bcolB j) (bcol (((cfg0.win 3).blk t).view.emb j)) ?_ ?_
    · show win0_2.index t (0 : Fin 2) * 1 + 1 * 0 = 0
      rw [e4]
    · show win0_2.index t (1 : Fin 2) * 16 + 1 * (j 1).val = ((((cfg0.win 3).blk t).view.emb j) 1).val
      rw [r1, e5, e7]

/-- An entry of the output array is in point `t`'s block iff each coordinate is in the block's range on its axis. -/
theorem mem_blk (t : Fin cfg0.N) (i : S50000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v34).slice (win0_3.rect t)).set ↔ _
  rw [View.set_slice_whole, Rect.mem_set_unit]
  exact Iff.rfl

/-- Row r lies in the block of the point whose block index is r / 5000. -/
theorem cover (i : S50000x16.Idx) :
    ∃ t : Fin cfg0.N, (cfg0.win 3).flush t = true ∧ i ∈ ((cfg0.win 3).blk t).view.set := by
  have hi0 : (i 0).val < 50000 := (i 0).isLt
  have hi1 : (i 1).val < 16 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- The output array after the layer is the layer's function of the arrays it was entered with. -/
theorem final (c : Dev nD) :
    (dat0 V c).arrAt 3 cfg0.N = lin (V c main_arg0) (V c main_arg3) (V c main_v33) :=
  (dat0 V c).arrAt_eq_of_cover 3 (lin (V c main_arg0) (V c main_arg3) (V c main_v33)) (fun t _ => flushed_eq V c t) cover

end Blocks

end Cert.KernelIdeal.Layer0

end
-- ==== Proof.LibJoin.lean ====
/-
  Reading a line of host operations when one of them joins two arrays.

  What a buffer holds after a line of operations is computed operation by operation. A join of arrays along an axis is
  stated over a list of (shape, array) pairs together with a fact about the list's shapes; because that fact's statement
  mentions the list, an operand inside the list cannot be replaced by an equal one by rewriting. Stating the same join
  over its two arrays as plain arguments, the fact over the two shapes alone, removes the obstacle.
-/
import Idealize.ShloMosaic.Lib.StableHlo.Run

noncomputable section

namespace Cert.LibJoin

open Idealize.ShloMosaic

/-- The concatenation of two arrays along an axis, the fact about the shapes stated over the two shapes alone: the same
    function as the list form `concatenate t a [⟨s1, x⟩, ⟨s2, y⟩]`, but its operands are ordinary arguments, so they can
    be replaced by equal ones without touching that fact. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The list form of a two-array join is the two-argument form (by definition). Used left to right it lets a rewriting
    pass continue into the join's operands. -/
theorem cat2_eq {α : Type} (t : Shape) (a : Fin t.rank) (s1 s2 : Shape) (x : s1.Idx → α) (y : s2.Idx → α)
    (h : Shape.Concatenates (([⟨s1, x⟩, ⟨s2, y⟩] : List ((s : Shape) × (s.Idx → α))).map Sigma.fst) t a) :
    concatenate t a [⟨s1, x⟩, ⟨s2, y⟩] h = cat2 t a s1 s2 h x y := rfl

/-- Reads what a buffer holds after a LITERAL line of host operations (unfold the line's name first): each operation's
    result at its own buffer is its function of its operands' contents, at any other buffer what was there (the buffers told
    apart by deciding the references), and a two-array join's operands are read too. What is left is a term of pure
    operations over the starting contents at the buffers the line only reads. Keep those starting contents behind a
    variable (`generalize`) when they are themselves a fold, so that the pass stops there. -/
macro "read_fold" : tactic => `(tactic| (
  simp (disch := decide) only [StableHlo.after_cons, StableHlo.after_nil,
    StableHlo.nullary_result', StableHlo.unary_result', StableHlo.binary_result', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', StableHlo.unaryIndexed_result_ne', StableHlo.binaryIndexed_result_ne',
    Cert.LibJoin.cat2_eq]))

end Cert.LibJoin

end
-- ==== Proof.Carry.lean ====
/-
  Carrying a buffer through the fold of @main's segments.

  Between two layers the program runs three stretches of host operations. A buffer that no operation of a stretch writes
  keeps its contents across the stretch; a layer rewrites only its output array. So a value computed early (the edge
  normalisation, the two index vectors, an argument array) is still there, unchanged, when a later stretch reads it.
-/
import proofs.«104778_j50113678409912_2_alg».proof.Proof.Gen.KernelIdeal.Frame
import proofs.«104778_j50113678409912_2_alg».proof.Proof.LibJoin
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem

/-- Closes "no operation of this host stretch writes the buffer": every operation writes one buffer, a different one. -/
macro "untouched" : tactic => `(tactic| (
  refine List.forall_iff_forall_mem.mp ?_
  simp only [hostOps0, hostOps0_1, hostOps0_2, hostOps1, hostOps1_1, hostOps1_2, hostOps2, hostOps2_1, hostOps2_2, hostOps3, hostOps3_1, hostOps3_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-- A buffer that none of the three host stretches before layer 0 writes holds at the layer's entry what it held at launch. -/
theorem hop0 (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = W0 m ρ c (Proc.devRef .tc b) :=
  (StableHlo.after_of_forall_not_mem (b := Proc.devRef .tc b) _ _ h2).trans
    ((StableHlo.after_of_forall_not_mem (b := Proc.devRef .tc b) _ _ h1).trans
      (StableHlo.after_of_forall_not_mem (b := Proc.devRef .tc b) _ _ h0))

/-- A buffer that none of the three host stretches before layer 1 writes holds at the layer's entry what it held at the previous layer's exit. -/
theorem hop1 (c : Dev nD) (b : Ref sig .tc)
    (h0 : ∀ op ∈ (hostOps1 : List (HloOp τ sig (Elt F))), Proc.devRef .tc b ∉ op.writes)
    (h1 : ∀ op ∈ (hostOps1_1 : List (HloOp τ sig (Elt F))), Proc.devRef .tc b ∉ op.writes)
    (h2 : ∀ op ∈ (hostOps1_2 : List (HloOp τ sig (Elt F))), Proc.devRef .tc b ∉ op.writes) :
    W7 m ρ c (Proc.devRef .tc b) = W4 m ρ c (Proc.devRef .tc b) :=
  (StableHlo.after_of_forall_not_mem (b := Proc.devRef .tc b) _ _ h2).trans
    ((StableHlo.after_of_forall_not_mem (b := Proc.devRef .tc b) _ _ h1).trans
      (StableHlo.after_of_forall_not_mem (b := Proc.devRef .tc b) _ _ h0))

/-- A buffer that none of the three host stretches before layer 2 writes holds at the layer's entry what it held at the previous layer's exit. -/
theorem hop2 (c : Dev nD) (b : Ref sig .tc)
    (h0 : ∀ op ∈ (hostOps2 : List (HloOp τ sig (Elt F))), Proc.devRef .tc b ∉ op.writes)
    (h1 : ∀ op ∈ (hostOps2_1 : List (HloOp τ sig (Elt F))), Proc.devRef .tc b ∉ op.writes)
    (h2 : ∀ op ∈ (hostOps2_2 : List (HloOp τ sig (Elt F))), Proc.devRef .tc b ∉ op.writes) :
    W11 m ρ c (Proc.devRef .tc b) = W8 m ρ c (Proc.devRef .tc b) :=
  (StableHlo.after_of_forall_not_mem (b := Proc.devRef .tc b) _ _ h2).trans
    ((StableHlo.after_of_forall_not_mem (b := Proc.devRef .tc b) _ _ h1).trans
      (StableHlo.after_of_forall_not_mem (b := Proc.devRef .tc b) _ _ h0))

/-- A buffer that none of the three host stretches before layer 3 writes holds at the layer's entry what it held at the previous layer's exit. -/
theorem hop3 (c : Dev nD) (b : Ref sig .tc)
    (h0 : ∀ op ∈ (hostOps3 : List (HloOp τ sig (Elt F))), Proc.devRef .tc b ∉ op.writes)
    (h1 : ∀ op ∈ (hostOps3_1 : List (HloOp τ sig (Elt F))), Proc.devRef .tc b ∉ op.writes)
    (h2 : ∀ op ∈ (hostOps3_2 : List (HloOp τ sig (Elt F))), Proc.devRef .tc b ∉ op.writes) :
    W15 m ρ c (Proc.devRef .tc b) = W12 m ρ c (Proc.devRef .tc b) :=
  (StableHlo.after_of_forall_not_mem (b := Proc.devRef .tc b) _ _ h2).trans
    ((StableHlo.after_of_forall_not_mem (b := Proc.devRef .tc b) _ _ h1).trans
      (StableHlo.after_of_forall_not_mem (b := Proc.devRef .tc b) _ _ h0))

end Cert.KernelIdeal.Fold

end
-- ==== Proof.Stage0.lean ====
/-
  The fold up to the first layer's exit.

  Before the first layer the host builds, from the edge list and the edge weights alone, the two index vectors (sources
  and targets, each followed by the self loops 0 … 49999) and the edge normalisation
      norm[e] = dinv[src e] · w[e] · dinv[dst e],   dinv = 1/√deg where deg > 0, else 0,   deg = Σ of w over incoming edges,
  by the very operations the reference applies, so they are the reference's own terms of the arguments. The first layer is
  entered with the node features, the first weight and a zero row; over the extended reals x + 0 = x, so its output is the
  plain product of the features with the weight: the reference's first matrix product.
-/
import proofs.«104778_j50113678409912_2_alg».proof.Proof.Layer0
import proofs.«104778_j50113678409912_2_alg».proof.Proof.Carry
import proofs.«104778_j50113678409912_2_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The argument arrays as launched -/

abbrev a0 (c : Dev nD) : Buf (Elt Ideal) ((c : Thread nD τ).loc main_arg0) := m ((c : Thread nD τ).loc main_arg0)
abbrev a1 (c : Dev nD) : Buf (Elt Ideal) ((c : Thread nD τ).loc main_arg1) := m ((c : Thread nD τ).loc main_arg1)
abbrev a2 (c : Dev nD) : Buf (Elt Ideal) ((c : Thread nD τ).loc main_arg2) := m ((c : Thread nD τ).loc main_arg2)
abbrev a3 (c : Dev nD) : Buf (Elt Ideal) ((c : Thread nD τ).loc main_arg3) := m ((c : Thread nD τ).loc main_arg3)
abbrev a4 (c : Dev nD) : Buf (Elt Ideal) ((c : Thread nD τ).loc main_arg4) := m ((c : Thread nD τ).loc main_arg4)
abbrev a5 (c : Dev nD) : Buf (Elt Ideal) ((c : Thread nD τ).loc main_arg5) := m ((c : Thread nD τ).loc main_arg5)
abbrev a6 (c : Dev nD) : Buf (Elt Ideal) ((c : Thread nD τ).loc main_arg6) := m ((c : Thread nD τ).loc main_arg6)
abbrev a7 (c : Dev nD) : Buf (Elt Ideal) ((c : Thread nD τ).loc main_arg7) := m ((c : Thread nD τ).loc main_arg7)
abbrev a8 (c : Dev nD) : Buf (Elt Ideal) ((c : Thread nD τ).loc main_arg8) := m ((c : Thread nD τ).loc main_arg8)
abbrev a9 (c : Dev nD) : Buf (Elt Ideal) ((c : Thread nD τ).loc main_arg9) := m ((c : Thread nD τ).loc main_arg9)
abbrev a10 (c : Dev nD) : Buf (Elt Ideal) ((c : Thread nD τ).loc main_arg10) := m ((c : Thread nD τ).loc main_arg10)

/-! ## After the first host stretch: the index vectors, the weights with the self loops' ones, the degree's sign and its
    inverse square root -/

theorem W1_row (c : Dev nD) : W1 m ρ c (Proc.devRef .tc main_v5) = val_main_v3 (F := Ideal) (a1 m c) := by
  show StableHlo.after hostOps0 (W0 m ρ c) (Proc.devRef .tc main_v5) = _
  dsimp only [hostOps0]
  read_fold
  rfl
theorem W1_col (c : Dev nD) : W1 m ρ c (Proc.devRef .tc main_v6) = val_main_v6 (F := Ideal) (a1 m c) := by
  show StableHlo.after hostOps0 (W0 m ρ c) (Proc.devRef .tc main_v6) = _
  dsimp only [hostOps0]
  read_fold
  rfl
theorem W1_ew (c : Dev nD) : W1 m ρ c (Proc.devRef .tc main_v8) = val_main_v8 (F := Ideal) (a2 m c) := by
  show StableHlo.after hostOps0 (W0 m ρ c) (Proc.devRef .tc main_v8) = _
  dsimp only [hostOps0]
  read_fold
  rfl
theorem W1_pos (c : Dev nD) : W1 m ρ c (Proc.devRef .tc main_v13) = val_main_v14 (F := Ideal) (a1 m c) (a2 m c) := by
  show StableHlo.after hostOps0 (W0 m ρ c) (Proc.devRef .tc main_v13) = _
  dsimp only [hostOps0]
  read_fold
  rfl
theorem W1_rsq (c : Dev nD) : W1 m ρ c (Proc.devRef .tc main_v14) = val_main_v15 (F := Ideal) (a1 m c) (a2 m c) := by
  show StableHlo.after hostOps0 (W0 m ρ c) (Proc.devRef .tc main_v14) = _
  dsimp only [hostOps0]
  read_fold
  rfl
theorem W1_zero (c : Dev nD) : W1 m ρ c (Proc.devRef .tc main_cst_2) = val_main_cst_2 (F := Ideal) := by
  show StableHlo.after hostOps0 (W0 m ρ c) (Proc.devRef .tc main_cst_2) = _
  dsimp only [hostOps0]
  read_fold
  rfl

/-! ## After the selection: the inverse square root of the degree where it is positive, zero elsewhere -/

theorem W2_dinv (c : Dev nD) : W2 m ρ c (Proc.devRef .tc main_v15) = val_main_v16 (F := Ideal) (a1 m c) (a2 m c) := by
  have h13 := W1_pos m ρ c
  have h14 := W1_rsq m ρ c
  have hz := W1_zero m ρ c
  show StableHlo.after hostOps0_1 (W1 m ρ c) (Proc.devRef .tc main_v15) = _
  generalize W1 m ρ c = V1 at h13 h14 hz ⊢
  have key : StableHlo.after hostOps0_1 V1 (Proc.devRef .tc main_v15)
      = select (V1 (Proc.devRef .tc main_v13)) (V1 (Proc.devRef .tc main_v14)) (broadcastInDim S50000 ![] bcast_S_S50000 (id (V1 (Proc.devRef .tc main_cst_2)))) := by
    dsimp only [hostOps0_1]
    read_fold
    rfl
  rw [key, h13, h14, hz]
  rfl
theorem W2_row (c : Dev nD) : W2 m ρ c (Proc.devRef .tc main_v5) = val_main_v3 (F := Ideal) (a1 m c) :=
  (StableHlo.after_of_forall_not_mem (b := Proc.devRef .tc main_v5) _ _ (by untouched)).trans (W1_row m ρ c)
theorem W2_col (c : Dev nD) : W2 m ρ c (Proc.devRef .tc main_v6) = val_main_v6 (F := Ideal) (a1 m c) :=
  (StableHlo.after_of_forall_not_mem (b := Proc.devRef .tc main_v6) _ _ (by untouched)).trans (W1_col m ρ c)
theorem W2_ew (c : Dev nD) : W2 m ρ c (Proc.devRef .tc main_v8) = val_main_v8 (F := Ideal) (a2 m c) :=
  (StableHlo.after_of_forall_not_mem (b := Proc.devRef .tc main_v8) _ _ (by untouched)).trans (W1_ew m ρ c)

/-! ## At the first layer's entry -/

theorem W3_arg0 (c : Dev nD) : W3 m ρ c (Proc.devRef .tc main_arg0) = a0 m c :=
  (hop0 m ρ c main_arg0 (by untouched) (by untouched) (by untouched)).trans rfl
theorem W3_arg3 (c : Dev nD) : W3 m ρ c (Proc.devRef .tc main_arg3) = a3 m c :=
  (hop0 m ρ c main_arg3 (by untouched) (by untouched) (by untouched)).trans rfl

/-- The row the first layer adds is zero in every column. -/
theorem W3_zero (c : Dev nD) (y : S1x16.Idx) : @Eq EReal ((V3 m ρ c main_v33 : FVec Ideal S1x16 .f32) y) 0 := by
  have e : (V3 m ρ c main_v33 : FVec Ideal S1x16 .f32)
      = shapeCast S1x16 (broadcastInDim S16 ![] bcast_S_S16 (constant (F := Ideal) S_ .f32 0x00000000#32)) shapeCasts_S16_S1x16 := by
    show StableHlo.after hostOps0_2 (W2 m ρ c) (Proc.devRef .tc main_v33) = _
    generalize W2 m ρ c = V2
    dsimp only [hostOps0_2]
    read_fold
    rfl
  rw [e]
  show Ideal.ofBits .f32 0x00000000#32 = 0
  exact Ideal.ofBits_zero_f32

theorem W3_row (c : Dev nD) : W3 m ρ c (Proc.devRef .tc main_v5) = val_main_v3 (F := Ideal) (a1 m c) :=
  (StableHlo.after_of_forall_not_mem (b := Proc.devRef .tc main_v5) _ _ (by untouched)).trans (W2_row m ρ c)
theorem W3_col (c : Dev nD) : W3 m ρ c (Proc.devRef .tc main_v6) = val_main_v6 (F := Ideal) (a1 m c) :=
  (StableHlo.after_of_forall_not_mem (b := Proc.devRef .tc main_v6) _ _ (by untouched)).trans (W2_col m ρ c)
/-- The edge normalisation: the reference's term. -/
theorem W3_norm (c : Dev nD) : W3 m ρ c (Proc.devRef .tc main_v31) = val_main_v32 (F := Ideal) (a1 m c) (a2 m c) := by
  have hd := W2_dinv m ρ c
  have hr := W2_row m ρ c
  have hc := W2_col m ρ c
  have he := W2_ew m ρ c
  show StableHlo.after hostOps0_2 (W2 m ρ c) (Proc.devRef .tc main_v31) = _
  generalize W2 m ρ c = V2 at hd hr hc he ⊢
  dsimp only [hostOps0_2]
  read_fold
  rw [hd, hr, hc, he]
  rfl

/-! ## At the first layer's exit -/

/-- The first layer's output is the reference's first matrix product: the added row is zero. -/
theorem W4_out (c : Dev nD) : W4 m ρ c (Proc.devRef .tc main_v34) = val_main_v9 (F := Ideal) (a0 m c) (a3 m c) := by
  refine (W4_arr m ρ c 3).trans ((Layer0.final (V3 m ρ) c).trans ?_)
  have hx : V3 m ρ c main_arg0 = a0 m c := W3_arg0 m ρ c
  have hw : V3 m ρ c main_arg3 = a3 m c := W3_arg3 m ρ c
  rw [hx, hw, Layer0.lin_zero _ _ _ (W3_zero m ρ c)]
  funext i
  rw [val_main_v9_apply]
  rfl

theorem W4_row (c : Dev nD) : W4 m ρ c (Proc.devRef .tc main_v5) = val_main_v3 (F := Ideal) (a1 m c) :=
  (W4_of_ne m ρ c main_v5 (by decide)).trans (W3_row m ρ c)
theorem W4_col (c : Dev nD) : W4 m ρ c (Proc.devRef .tc main_v6) = val_main_v6 (F := Ideal) (a1 m c) :=
  (W4_of_ne m ρ c main_v6 (by decide)).trans (W3_col m ρ c)
theorem W4_norm (c : Dev nD) : W4 m ρ c (Proc.devRef .tc main_v31) = val_main_v32 (F := Ideal) (a1 m c) (a2 m c) :=
  (W4_of_ne m ρ c main_v31 (by decide)).trans (W3_norm m ρ c)
theorem W4_arg0 (c : Dev nD) : W4 m ρ c (Proc.devRef .tc main_arg0) = a0 m c :=
  ((W4_arr m ρ c 0).trans (((dat0 (V3 m ρ) c).arrAt_in 0 rfl _).trans (A_eq0 (V3 m ρ) c 0))).trans (W3_arg0 m ρ c)
theorem W4_arg4 (c : Dev nD) : W4 m ρ c (Proc.devRef .tc main_arg4) = a4 m c :=
  (W4_of_ne m ρ c main_arg4 (by decide)).trans ((hop0 m ρ c main_arg4 (by untouched) (by untouched) (by untouched)).trans rfl)
theorem W4_arg5 (c : Dev nD) : W4 m ρ c (Proc.devRef .tc main_arg5) = a5 m c :=
  (W4_of_ne m ρ c main_arg5 (by decide)).trans ((hop0 m ρ c main_arg5 (by untouched) (by untouched) (by untouched)).trans rfl)
theorem W4_arg6 (c : Dev nD) : W4 m ρ c (Proc.devRef .tc main_arg6) = a6 m c :=
  (W4_of_ne m ρ c main_arg6 (by decide)).trans ((hop0 m ρ c main_arg6 (by untouched) (by untouched) (by untouched)).trans rfl)
theorem W4_arg7 (c : Dev nD) : W4 m ρ c (Proc.devRef .tc main_arg7) = a7 m c :=
  (W4_of_ne m ρ c main_arg7 (by decide)).trans ((hop0 m ρ c main_arg7 (by untouched) (by untouched) (by untouched)).trans rfl)
theorem W4_arg8 (c : Dev nD) : W4 m ρ c (Proc.devRef .tc main_arg8) = a8 m c :=
  (W4_of_ne m ρ c main_arg8 (by decide)).trans ((hop0 m ρ c main_arg8 (by untouched) (by untouched) (by untouched)).trans rfl)
theorem W4_arg9 (c : Dev nD) : W4 m ρ c (Proc.devRef .tc main_arg9) = a9 m c :=
  (W4_of_ne m ρ c main_arg9 (by decide)).trans ((hop0 m ρ c main_arg9 (by untouched) (by untouched) (by untouched)).trans rfl)
theorem W4_arg10 (c : Dev nD) : W4 m ρ c (Proc.devRef .tc main_arg10) = a10 m c :=
  (W4_of_ne m ρ c main_arg10 (by decide)).trans ((hop0 m ρ c main_arg10 (by untouched) (by untouched) (by untouched)).trans rfl)

end Cert.KernelIdeal.Fold

end
-- ==== Proof.Layer1.lean ====
/-
  The second linear layer as one function of the arrays it is entered with.

  The layer multiplies a [50000, 16] array by a [16, 32] weight and adds a [1, 32] row, ten blocks of 5000 rows at a
  time: block `t` of the output is the product of block `t` of the left operand with the whole weight, plus the row
  repeated down the block. Over the extended reals a change of float format is the identity and the matrix unit's
  product into a zero accumulator is the plain sum over the contracted axis, so an output entry depends only on its own row
  of the left operand and its own column of the weight and of the added row:
      out[r, c] = Σ_k x[r, k] · w[k, c] + b[0, c].
  The ten blocks tile the output's rows (row r lies in block r / 5000), so the whole output array is that function.
-/
import proofs.«104778_j50113678409912_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.Pipeline (Dat)

/-! ## The layer's function -/

/-- Entry (r, k) of the left operand, for the output entry `i` = (r, c). -/
abbrev lrow (i : S50000x32.Idx) (k : Fin 16) : S50000x16.Idx := fun a => match a with
  | ⟨0, _⟩ => ⟨(i 0).val, (i 0).isLt⟩
  | ⟨1, _⟩ => ⟨k.val, k.isLt⟩
/-- Entry (k, c) of the weight. -/
abbrev wcol (i : S50000x32.Idx) (k : Fin 16) : S16x32.Idx := fun a => match a with
  | ⟨0, _⟩ => ⟨k.val, k.isLt⟩
  | ⟨1, _⟩ => ⟨(i 1).val, (i 1).isLt⟩
/-- Entry (0, c) of the added row. -/
abbrev bcol (i : S50000x32.Idx) : S1x32.Idx := fun a => match a with
  | ⟨0, _⟩ => ⟨0, Nat.one_pos⟩
  | ⟨1, _⟩ => ⟨(i 1).val, (i 1).isLt⟩

/-- out[r, c] = Σ_k x[r, k] · w[k, c] + b[0, c]. -/
def lin (X : FVec Ideal S50000x16 .f32) (Wt : FVec Ideal S16x32 .f32) (B : FVec Ideal S1x32 .f32) : FVec Ideal S50000x32 .f32 :=
  fun i => (∑ k : Fin 16, X (lrow i k) * Wt (wcol i k)) + B (bcol i)

/-- The layer's function at an entry. -/
theorem lin_apply (X : FVec Ideal S50000x16 .f32) (Wt : FVec Ideal S16x32 .f32) (B : FVec Ideal S1x32 .f32) (i : S50000x32.Idx) :
    lin X Wt B i = (∑ k : Fin 16, X (lrow i k) * Wt (wcol i k)) + B (bcol i) := rfl

/-- With a zero row added the layer is the plain product: x + 0 = x on the extended reals. -/
theorem lin_zero (X : FVec Ideal S50000x16 .f32) (Wt : FVec Ideal S16x32 .f32) (B : FVec Ideal S1x32 .f32) (hB : ∀ y, B y = 0) :
    lin X Wt B = fun i => ∑ k : Fin 16, X (lrow i k) * Wt (wcol i k) := by
  funext i
  rw [lin_apply, hB, add_zero]

/-! ## One block: the body's stored value at an index -/

/-- The same three entries inside one block of 5000 rows. -/
abbrev lrowB (j : S5000x32.Idx) (k : Fin 16) : S5000x16.Idx := fun a => match a with
  | ⟨0, _⟩ => ⟨(j 0).val, (j 0).isLt⟩
  | ⟨1, _⟩ => ⟨k.val, k.isLt⟩
abbrev wcolB (j : S5000x32.Idx) (k : Fin 16) : S16x32.Idx := fun a => match a with
  | ⟨0, _⟩ => ⟨k.val, k.isLt⟩
  | ⟨1, _⟩ => ⟨(j 1).val, (j 1).isLt⟩
abbrev bcolB (j : S5000x32.Idx) : S1x32.Idx := fun a => match a with
  | ⟨0, _⟩ => ⟨0, Nat.one_pos⟩
  | ⟨1, _⟩ => ⟨(j 1).val, (j 1).isLt⟩

theorem lhs_0 (j : S5000x32.Idx) (q : dot_S5000x16_S16x32_S5000x32_1_0_0_1_n_n.contr.Idx) :
    (dot_S5000x16_S16x32_S5000x32_1_0_0_1_n_n.lhsIdx j q 0).val = (j 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_1 (j : S5000x32.Idx) (q : dot_S5000x16_S16x32_S5000x32_1_0_0_1_n_n.contr.Idx) :
    (dot_S5000x16_S16x32_S5000x32_1_0_0_1_n_n.lhsIdx j q 1).val = (q ⟨0, by decide⟩).val :=
  dot_S5000x16_S16x32_S5000x32_1_0_0_1_n_n.lhsIdx_val_of_single rfl j q
theorem rhs_0 (j : S5000x32.Idx) (q : dot_S5000x16_S16x32_S5000x32_1_0_0_1_n_n.contr.Idx) :
    (dot_S5000x16_S16x32_S5000x32_1_0_0_1_n_n.rhsIdx j q 0).val = (q ⟨0, by decide⟩).val :=
  dot_S5000x16_S16x32_S5000x32_1_0_0_1_n_n.rhsIdx_val_of_single rfl j q
theorem rhs_1 (j : S5000x32.Idx) (q : dot_S5000x16_S16x32_S5000x32_1_0_0_1_n_n.contr.Idx) :
    (dot_S5000x16_S16x32_S5000x32_1_0_0_1_n_n.rhsIdx j q 1).val = (j 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- The matrix unit's product of two blocks into a zero accumulator, at an entry: the sum over the contracted axis. -/
theorem prod_apply (a : FVec Ideal S5000x16 .bf16) (b : FVec Ideal S16x32 .bf16) (j : S5000x32.Idx) :
    matmul dot_S5000x16_S16x32_S5000x32_1_0_0_1_n_n none a b (constant S5000x32 .f32 0x00000000#32) j
      = ∑ k : Fin 16, a (lrowB j k) * b (wcolB j k) := by
  simp only [matmul]
  rw [Ideal.matmul_constant_zero_apply, ← Equiv.sum_comp (ValueIdx.contrEquiv1 dot_S5000x16_S16x32_S5000x32_1_0_0_1_n_n 16 rfl rfl).symm]
  refine Finset.sum_congr rfl fun k _ => ?_
  have hk := ValueIdx.contrEquiv1_symm_val dot_S5000x16_S16x32_S5000x32_1_0_0_1_n_n 16 rfl rfl k
  have el : dot_S5000x16_S16x32_S5000x32_1_0_0_1_n_n.lhsIdx j ((ValueIdx.contrEquiv1 dot_S5000x16_S16x32_S5000x32_1_0_0_1_n_n 16 rfl rfl).symm k) = lrowB j k := funext fun a => Fin.ext (by
    match a with
    | ⟨0, _⟩ => exact lhs_0 _ _
    | ⟨1, _⟩ => exact (lhs_1 _ _).trans hk)
  have er : dot_S5000x16_S16x32_S5000x32_1_0_0_1_n_n.rhsIdx j ((ValueIdx.contrEquiv1 dot_S5000x16_S16x32_S5000x32_1_0_0_1_n_n 16 rfl rfl).symm k) = wcolB j k := funext fun a => Fin.ext (by
    match a with
    | ⟨0, _⟩ => exact (rhs_0 _ _).trans hk
    | ⟨1, _⟩ => exact rhs_1 _ _)
  rw [el, er]

/-- The [1, 32] row repeated down a block, at an entry: the row's entry in that column. -/
theorem row_apply (x2 : FVec Ideal S1x32 .f32) (j : S5000x32.Idx) :
    broadcastTo S5000x32 (shapeCast S1x32 x2 shapeCasts_S1x32_S1x32) broadcasts_S1x32_S5000x32 j = x2 (bcolB j) := by
  rw [shapeCast_self]
  exact broadcastTo_apply x2 broadcasts_S1x32_S5000x32 j (bcolB j) (fun a => match a with
    | ⟨0, _⟩ => by show (0 : Nat) = if (1 : Nat) = 1 then 0 else _; rw [if_pos rfl]
    | ⟨1, _⟩ => by show (j 1).val = if (32 : Nat) = 1 then 0 else (j 1).val; rw [if_neg (by decide)])

/-- What the body stores, at an entry of the block: the product's sum plus the row's entry. -/
theorem stored_apply (x0 : FVec Ideal S5000x16 .f32) (x1 : FVec Ideal S16x32 .f32) (x2 : FVec Ideal S1x32 .f32) (j : S5000x32.Idx) :
    k1_pay1 (F := Ideal) x0 x1 x2 j = (∑ k : Fin 16, x0 (lrowB j k) * x1 (wcolB j k)) + x2 (bcolB j) := by
  unfold k1_pay1
  show addf (matmul dot_S5000x16_S16x32_S5000x32_1_0_0_1_n_n none (truncf .bf16 (shapeCast S5000x16 x0 shapeCasts_S5000x16_S5000x16) bitsLt_bf16_f32) (truncf .bf16 x1 bitsLt_bf16_f32) (constant S5000x32 .f32 0x00000000#32)) (broadcastTo S5000x32 (shapeCast S1x32 x2 shapeCasts_S1x32_S1x32) broadcasts_S1x32_S5000x32) j = _
  rw [shapeCast_self x0]
  exact congrArg₂ (· + ·) (prod_apply (truncf .bf16 x0 bitsLt_bf16_f32) (truncf .bf16 x1 bitsLt_bf16_f32) j) (row_apply x2 j)

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's blocks move down the rows together,
    the weight and the added row stay whole. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every block of rows is some grid point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- The left operand's block at a point, at an entry, is the array's entry 5000 · (block index) rows further down. -/
theorem blk0_read (c : Dev nD) (t : Fin cfg1.N) (y : S5000x16.Idx) (i : S50000x16.Idx)
    (h0 : win1_0.index t (0 : Fin 2) * 5000 + 1 * (y 0).val = (i 0).val)
    (h1 : win1_0.index t (1 : Fin 2) * 16 + 1 * (y 1).val = (i 1).val) :
    (iblk1 V c 0 t : FVec Ideal S5000x16 .f32) y = V c main_v51 i := by
  unfold iblk1
  rw [View.read_apply]
  show V c main_v51 (((cfg1.win 0).blk t).view.emb y) = V c main_v51 i
  refine congrArg (V c main_v51) (funext fun a => Fin.ext ?_)
  match a with
  | ⟨0, _⟩ => exact h0
  | ⟨1, _⟩ => exact h1
/-- The weight's block is the whole weight. -/
theorem blk1_read (c : Dev nD) (t : Fin cfg1.N) (y : S16x32.Idx) (i : S16x32.Idx)
    (h0 : win1_1.index t (0 : Fin 2) * 16 + 1 * (y 0).val = (i 0).val)
    (h1 : win1_1.index t (1 : Fin 2) * 32 + 1 * (y 1).val = (i 1).val) :
    (iblk1 V c 1 t : FVec Ideal S16x32 .f32) y = V c main_arg5 i := by
  unfold iblk1
  rw [View.read_apply]
  show V c main_arg5 (((cfg1.win 1).blk t).view.emb y) = V c main_arg5 i
  refine congrArg (V c main_arg5) (funext fun a => Fin.ext ?_)
  match a with
  | ⟨0, _⟩ => exact h0
  | ⟨1, _⟩ => exact h1
/-- The added row's block is the whole row. -/
theorem blk2_read (c : Dev nD) (t : Fin cfg1.N) (y : S1x32.Idx) (i : S1x32.Idx)
    (h0 : win1_2.index t (0 : Fin 2) * 1 + 1 * (y 0).val = (i 0).val)
    (h1 : win1_2.index t (1 : Fin 2) * 32 + 1 * (y 1).val = (i 1).val) :
    (iblk1 V c 2 t : FVec Ideal S1x32 .f32) y = V c main_v53 i := by
  unfold iblk1
  rw [View.read_apply]
  show V c main_v53 (((cfg1.win 2).blk t).view.emb y) = V c main_v53 i
  refine congrArg (V c main_v53) (funext fun a => Fin.ext ?_)
  match a with
  | ⟨0, _⟩ => exact h0
  | ⟨1, _⟩ => exact h1

/-- What point `t` writes back is block `t` of the layer's function of the arrays as the layer finds them. -/
theorem flushed_eq (c : Dev nD) (t : Fin cfg1.N) :
    (dat1 V c).flushed 3 t = ((cfg1.win 3).blk t).view.read (Elt Ideal) (lin (V c main_v51) (V c main_arg5) (V c main_v53)) := by
  show (cfg1.win 3).cut (grid1.coords t) ((dat1 V c).after 3 t) = _
  rw [after1_3]
  unfold out1_3
  rw [View.canon_unit_zero hz]
  simp only [View.ld_unit_zero (S := S5000x16) hz, View.ld_unit_zero (S := S16x32) hz, View.ld_unit_zero (S := S1x32) hz]
  obtain ⟨e0, e1, e2, e3, e4, e5, e6, e7⟩ := idx_facts t
  funext j
  show k1_pay1 (F := Ideal) (iblk1 V c 0 t) (iblk1 V c 1 t) (iblk1 V c 2 t) j
    = lin (V c main_v51) (V c main_arg5) (V c main_v53) (((cfg1.win 3).blk t).view.emb j)
  refine (stored_apply (iblk1 V c 0 t) (iblk1 V c 1 t) (iblk1 V c 2 t) j).trans ?_
  unfold lin
  have hj0 : (j 0).val < 5000 := (j 0).isLt
  have hj1 : (j 1).val < 32 := (j 1).isLt
  have r0 : ((((cfg1.win 3).blk t).view.emb j) 0).val = win1_3.index t (0 : Fin 2) * 5000 + 1 * (j 0).val := rfl
  have r1 : ((((cfg1.win 3).blk t).view.emb j) 1).val = win1_3.index t (1 : Fin 2) * 32 + 1 * (j 1).val := rfl
  refine congrArg₂ (· + ·) (Finset.sum_congr rfl fun k _ => congrArg₂ (· * ·) ?_ ?_) ?_
  · refine blk0_read V c t (lrowB j k) (lrow (((cfg1.win 3).blk t).view.emb j) k) ?_ ?_
    · show win1_0.index t (0 : Fin 2) * 5000 + 1 * (j 0).val = ((((cfg1.win 3).blk t).view.emb j) 0).val
      rw [r0, e0]
    · show win1_0.index t (1 : Fin 2) * 16 + 1 * k.val = k.val
      rw [e1]; omega
  · refine blk1_read V c t (wcolB j k) (wcol (((cfg1.win 3).blk t).view.emb j) k) ?_ ?_
    · show win1_1.index t (0 : Fin 2) * 16 + 1 * k.val = k.val
      rw [e2]; omega
    · show win1_1.index t (1 : Fin 2) * 32 + 1 * (j 1).val = ((((cfg1.win 3).blk t).view.emb j) 1).val
      rw [r1, e3, e7]
  · refine blk2_read V c t (bcolB j) (bcol (((cfg1.win 3).blk t).view.emb j)) ?_ ?_
    · show win1_2.index t (0 : Fin 2) * 1 + 1 * 0 = 0
      rw [e4]
    · show win1_2.index t (1 : Fin 2) * 32 + 1 * (j 1).val = ((((cfg1.win 3).blk t).view.emb j) 1).val
      rw [r1, e5, e7]

/-- An entry of the output array is in point `t`'s block iff each coordinate is in the block's range on its axis. -/
theorem mem_blk (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v54).slice (win1_3.rect t)).set ↔ _
  rw [View.set_slice_whole, Rect.mem_set_unit]
  exact Iff.rfl

/-- Row r lies in the block of the point whose block index is r / 5000. -/
theorem cover (i : S50000x32.Idx) :
    ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The output array after the layer is the layer's function of the arrays it was entered with. -/
theorem final (c : Dev nD) :
    (dat1 V c).arrAt 3 cfg1.N = lin (V c main_v51) (V c main_arg5) (V c main_v53) :=
  (dat1 V c).arrAt_eq_of_cover 3 (lin (V c main_v51) (V c main_arg5) (V c main_v53)) (fun t _ => flushed_eq V c t) cover

end Blocks

end Cert.KernelIdeal.Layer1

end
-- ==== Proof.Stage1.lean ====
/-
  The fold from the first layer's exit to the second layer's exit.

  Between the two layers the host gathers the previous layer's output rows at the edges' sources, scales each gathered row
  by the edge's normalisation, adds the scaled rows into their target nodes, adds the convolution's bias and clamps at
  zero: the operations the reference applies to its own matrix product, on values already shown equal to the
  reference's. The second layer then multiplies that array by its weight; its added row is zero, so its output is the reference's next matrix product.
-/
import proofs.«104778_j50113678409912_2_alg».proof.Proof.Stage0
import proofs.«104778_j50113678409912_2_alg».proof.Proof.Layer1

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-! ## Through the host stretch -/

/-- The convolution before the clamp: gather, scale by the normalisation, add into the targets, add the bias. -/
theorem W5_pre (c : Dev nD) : W5 m ρ c (Proc.devRef .tc main_v50) = val_main_v48 (F := Ideal) (a0 m c) (a1 m c) (a2 m c) (a3 m c) (a4 m c) := by
  show StableHlo.after hostOps1 (W4 m ρ c) (Proc.devRef .tc main_v50) = _
  dsimp only [hostOps1]
  read_fold
  rw [W4_norm m ρ c, W4_row m ρ c, W4_col m ρ c, W4_out m ρ c, W4_arg4 m ρ c]
  rfl
/-- Clamped at zero. -/
theorem W6_act (c : Dev nD) : W6 m ρ c (Proc.devRef .tc main_v51) = val_main_v49 (F := Ideal) (a0 m c) (a1 m c) (a2 m c) (a3 m c) (a4 m c) := by
  have h := W5_pre m ρ c
  show StableHlo.after hostOps1_1 (W5 m ρ c) (Proc.devRef .tc main_v51) = _
  generalize W5 m ρ c = V1 at h ⊢
  have key : StableHlo.after hostOps1_1 V1 (Proc.devRef .tc main_v51)
      = maximumf (V1 (Proc.devRef .tc main_v50)) (broadcastInDim S50000x16 ![] bcast_S_S50000x16 (constant (F := Ideal) S_ .f32 0x00000000#32)) := by
    dsimp only [hostOps1_1]
    read_fold
    rfl
  rw [key, h]
  rfl

/-! ## At the second layer's entry -/

/-- The array the layer multiplies: the reference's first convolution, clamped at zero. -/
theorem W7_in (c : Dev nD) : W7 m ρ c (Proc.devRef .tc main_v51) = val_main_v49 (F := Ideal) (a0 m c) (a1 m c) (a2 m c) (a3 m c) (a4 m c) :=
  (StableHlo.after_of_forall_not_mem (b := Proc.devRef .tc main_v51) _ _ (by untouched)).trans (W6_act m ρ c)
theorem W7_w (c : Dev nD) : W7 m ρ c (Proc.devRef .tc main_arg5) = a5 m c :=
  (hop1 m ρ c main_arg5 (by untouched) (by untouched) (by untouched)).trans (W4_arg5 m ρ c)
/-- The row the layer adds is zero in every column. -/
theorem W7_zero (c : Dev nD) (y : S1x32.Idx) : @Eq EReal ((V7 m ρ c main_v53 : FVec Ideal S1x32 .f32) y) 0 := by
  have e : (V7 m ρ c main_v53 : FVec Ideal S1x32 .f32)
      = shapeCast S1x32 (broadcastInDim S32 ![] bcast_S_S32 (constant (F := Ideal) S_ .f32 0x00000000#32)) shapeCasts_S32_S1x32 := by
    show StableHlo.after hostOps1_2 (W6 m ρ c) (Proc.devRef .tc main_v53) = _
    generalize W6 m ρ c = V2
    dsimp only [hostOps1_2]
    read_fold
    rfl
  rw [e]
  show Ideal.ofBits .f32 0x00000000#32 = 0
  exact Ideal.ofBits_zero_f32

/-! ## At the second layer's exit -/

/-- The layer's output is the reference's matrix product of the same two arrays: the added row is zero. -/
theorem W8_out (c : Dev nD) : W8 m ρ c (Proc.devRef .tc main_v54) = val_main_v50 (F := Ideal) (a0 m c) (a1 m c) (a2 m c) (a3 m c) (a4 m c) (a5 m c) := by
  refine (W8_arr m ρ c 3).trans ((Layer1.final (V7 m ρ) c).trans ?_)
  have hx : V7 m ρ c main_v51 = val_main_v49 (F := Ideal) (a0 m c) (a1 m c) (a2 m c) (a3 m c) (a4 m c) := W7_in m ρ c
  have hw : V7 m ρ c main_arg5 = a5 m c := W7_w m ρ c
  rw [hx, hw, Layer1.lin_zero _ _ _ (W7_zero m ρ c)]
  funext j
  rw [val_main_v50_apply]
  rfl

theorem W8_norm (c : Dev nD) : W8 m ρ c (Proc.devRef .tc main_v31) = val_main_v32 (F := Ideal) (a1 m c) (a2 m c) :=
  (W8_of_ne m ρ c main_v31 (by decide)).trans ((hop1 m ρ c main_v31 (by untouched) (by untouched) (by untouched)).trans (W4_norm m ρ c))
theorem W8_row (c : Dev nD) : W8 m ρ c (Proc.devRef .tc main_v5) = val_main_v3 (F := Ideal) (a1 m c) :=
  (W8_of_ne m ρ c main_v5 (by decide)).trans ((hop1 m ρ c main_v5 (by untouched) (by untouched) (by untouched)).trans (W4_row m ρ c))
theorem W8_col (c : Dev nD) : W8 m ρ c (Proc.devRef .tc main_v6) = val_main_v6 (F := Ideal) (a1 m c) :=
  (W8_of_ne m ρ c main_v6 (by decide)).trans ((hop1 m ρ c main_v6 (by untouched) (by untouched) (by untouched)).trans (W4_col m ρ c))
theorem W8_arg0 (c : Dev nD) : W8 m ρ c (Proc.devRef .tc main_arg0) = a0 m c :=
  (W8_of_ne m ρ c main_arg0 (by decide)).trans ((hop1 m ρ c main_arg0 (by untouched) (by untouched) (by untouched)).trans (W4_arg0 m ρ c))
theorem W8_arg6 (c : Dev nD) : W8 m ρ c (Proc.devRef .tc main_arg6) = a6 m c :=
  (W8_of_ne m ρ c main_arg6 (by decide)).trans ((hop1 m ρ c main_arg6 (by untouched) (by untouched) (by untouched)).trans (W4_arg6 m ρ c))
theorem W8_arg7 (c : Dev nD) : W8 m ρ c (Proc.devRef .tc main_arg7) = a7 m c :=
  (W8_of_ne m ρ c main_arg7 (by decide)).trans ((hop1 m ρ c main_arg7 (by untouched) (by untouched) (by untouched)).trans (W4_arg7 m ρ c))
theorem W8_arg8 (c : Dev nD) : W8 m ρ c (Proc.devRef .tc main_arg8) = a8 m c :=
  (W8_of_ne m ρ c main_arg8 (by decide)).trans ((hop1 m ρ c main_arg8 (by untouched) (by untouched) (by untouched)).trans (W4_arg8 m ρ c))
theorem W8_arg9 (c : Dev nD) : W8 m ρ c (Proc.devRef .tc main_arg9) = a9 m c :=
  (W8_of_ne m ρ c main_arg9 (by decide)).trans ((hop1 m ρ c main_arg9 (by untouched) (by untouched) (by untouched)).trans (W4_arg9 m ρ c))
theorem W8_arg10 (c : Dev nD) : W8 m ρ c (Proc.devRef .tc main_arg10) = a10 m c :=
  (W8_of_ne m ρ c main_arg10 (by decide)).trans ((hop1 m ρ c main_arg10 (by untouched) (by untouched) (by untouched)).trans (W4_arg10 m ρ c))

end Cert.KernelIdeal.Fold

end
-- ==== Proof.Layer2.lean ====
/-
  The third linear layer as one function of the arrays it is entered with.

  The layer multiplies a [50000, 32] array by a [32, 64] weight and adds a [1, 64] row, ten blocks of 5000 rows at a
  time: block `t` of the output is the product of block `t` of the left operand with the whole weight, plus the row
  repeated down the block. Over the extended reals a change of float format is the identity and the matrix unit's
  product into a zero accumulator is the plain sum over the contracted axis, so an output entry depends only on its own row
  of the left operand and its own column of the weight and of the added row:
      out[r, c] = Σ_k x[r, k] · w[k, c] + b[0, c].
  The ten blocks tile the output's rows (row r lies in block r / 5000), so the whole output array is that function.
-/
import proofs.«104778_j50113678409912_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.Pipeline (Dat)

/-! ## The layer's function -/

/-- Entry (r, k) of the left operand, for the output entry `i` = (r, c). -/
abbrev lrow (i : S50000x64.Idx) (k : Fin 32) : S50000x32.Idx := fun a => match a with
  | ⟨0, _⟩ => ⟨(i 0).val, (i 0).isLt⟩
  | ⟨1, _⟩ => ⟨k.val, k.isLt⟩
/-- Entry (k, c) of the weight. -/
abbrev wcol (i : S50000x64.Idx) (k : Fin 32) : S32x64.Idx := fun a => match a with
  | ⟨0, _⟩ => ⟨k.val, k.isLt⟩
  | ⟨1, _⟩ => ⟨(i 1).val, (i 1).isLt⟩
/-- Entry (0, c) of the added row. -/
abbrev bcol (i : S50000x64.Idx) : S1x64.Idx := fun a => match a with
  | ⟨0, _⟩ => ⟨0, Nat.one_pos⟩
  | ⟨1, _⟩ => ⟨(i 1).val, (i 1).isLt⟩

/-- out[r, c] = Σ_k x[r, k] · w[k, c] + b[0, c]. -/
def lin (X : FVec Ideal S50000x32 .f32) (Wt : FVec Ideal S32x64 .f32) (B : FVec Ideal S1x64 .f32) : FVec Ideal S50000x64 .f32 :=
  fun i => (∑ k : Fin 32, X (lrow i k) * Wt (wcol i k)) + B (bcol i)

/-- The layer's function at an entry. -/
theorem lin_apply (X : FVec Ideal S50000x32 .f32) (Wt : FVec Ideal S32x64 .f32) (B : FVec Ideal S1x64 .f32) (i : S50000x64.Idx) :
    lin X Wt B i = (∑ k : Fin 32, X (lrow i k) * Wt (wcol i k)) + B (bcol i) := rfl

/-- With a zero row added the layer is the plain product: x + 0 = x on the extended reals. -/
theorem lin_zero (X : FVec Ideal S50000x32 .f32) (Wt : FVec Ideal S32x64 .f32) (B : FVec Ideal S1x64 .f32) (hB : ∀ y, B y = 0) :
    lin X Wt B = fun i => ∑ k : Fin 32, X (lrow i k) * Wt (wcol i k) := by
  funext i
  rw [lin_apply, hB, add_zero]

/-! ## One block: the body's stored value at an index -/

/-- The same three entries inside one block of 5000 rows. -/
abbrev lrowB (j : S5000x64.Idx) (k : Fin 32) : S5000x32.Idx := fun a => match a with
  | ⟨0, _⟩ => ⟨(j 0).val, (j 0).isLt⟩
  | ⟨1, _⟩ => ⟨k.val, k.isLt⟩
abbrev wcolB (j : S5000x64.Idx) (k : Fin 32) : S32x64.Idx := fun a => match a with
  | ⟨0, _⟩ => ⟨k.val, k.isLt⟩
  | ⟨1, _⟩ => ⟨(j 1).val, (j 1).isLt⟩
abbrev bcolB (j : S5000x64.Idx) : S1x64.Idx := fun a => match a with
  | ⟨0, _⟩ => ⟨0, Nat.one_pos⟩
  | ⟨1, _⟩ => ⟨(j 1).val, (j 1).isLt⟩

theorem lhs_0 (j : S5000x64.Idx) (q : dot_S5000x32_S32x64_S5000x64_1_0_0_1_n_n.contr.Idx) :
    (dot_S5000x32_S32x64_S5000x64_1_0_0_1_n_n.lhsIdx j q 0).val = (j 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_1 (j : S5000x64.Idx) (q : dot_S5000x32_S32x64_S5000x64_1_0_0_1_n_n.contr.Idx) :
    (dot_S5000x32_S32x64_S5000x64_1_0_0_1_n_n.lhsIdx j q 1).val = (q ⟨0, by decide⟩).val :=
  dot_S5000x32_S32x64_S5000x64_1_0_0_1_n_n.lhsIdx_val_of_single rfl j q
theorem rhs_0 (j : S5000x64.Idx) (q : dot_S5000x32_S32x64_S5000x64_1_0_0_1_n_n.contr.Idx) :
    (dot_S5000x32_S32x64_S5000x64_1_0_0_1_n_n.rhsIdx j q 0).val = (q ⟨0, by decide⟩).val :=
  dot_S5000x32_S32x64_S5000x64_1_0_0_1_n_n.rhsIdx_val_of_single rfl j q
theorem rhs_1 (j : S5000x64.Idx) (q : dot_S5000x32_S32x64_S5000x64_1_0_0_1_n_n.contr.Idx) :
    (dot_S5000x32_S32x64_S5000x64_1_0_0_1_n_n.rhsIdx j q 1).val = (j 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The matrix unit's product of two blocks into a zero accumulator, at an entry: the sum over the contracted axis. -/
theorem prod_apply (a : FVec Ideal S5000x32 .bf16) (b : FVec Ideal S32x64 .bf16) (j : S5000x64.Idx) :
    matmul dot_S5000x32_S32x64_S5000x64_1_0_0_1_n_n none a b (constant S5000x64 .f32 0x00000000#32) j
      = ∑ k : Fin 32, a (lrowB j k) * b (wcolB j k) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx j ((ValueIdx.contrEquiv1 dot_S5000x32_S32x64_S5000x64_1_0_0_1_n_n 32 rfl rfl).symm k) = lrowB j k := funext fun a => Fin.ext (by
    match a with
    | ⟨0, _⟩ => exact lhs_0 _ _
    | ⟨1, _⟩ => exact (lhs_1 _ _).trans hk)
  have er : dot_S5000x32_S32x64_S5000x64_1_0_0_1_n_n.rhsIdx j ((ValueIdx.contrEquiv1 dot_S5000x32_S32x64_S5000x64_1_0_0_1_n_n 32 rfl rfl).symm k) = wcolB j k := funext fun a => Fin.ext (by
    match a with
    | ⟨0, _⟩ => exact (rhs_0 _ _).trans hk
    | ⟨1, _⟩ => exact rhs_1 _ _)
  rw [el, er]

/-- The [1, 64] row repeated down a block, at an entry: the row's entry in that column. -/
theorem row_apply (x2 : FVec Ideal S1x64 .f32) (j : S5000x64.Idx) :
    broadcastTo S5000x64 (shapeCast S1x64 x2 shapeCasts_S1x64_S1x64) broadcasts_S1x64_S5000x64 j = x2 (bcolB j) := by
  rw [shapeCast_self]
  exact broadcastTo_apply x2 broadcasts_S1x64_S5000x64 j (bcolB j) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- What the body stores, at an entry of the block: the product's sum plus the row's entry. -/
theorem stored_apply (x0 : FVec Ideal S5000x32 .f32) (x1 : FVec Ideal S32x64 .f32) (x2 : FVec Ideal S1x64 .f32) (j : S5000x64.Idx) :
    k2_pay1 (F := Ideal) x0 x1 x2 j = (∑ k : Fin 32, x0 (lrowB j k) * x1 (wcolB j k)) + x2 (bcolB j) := by
  unfold k2_pay1
  show addf (matmul dot_S5000x32_S32x64_S5000x64_1_0_0_1_n_n none (truncf .bf16 (shapeCast S5000x32 x0 shapeCasts_S5000x32_S5000x32) bitsLt_bf16_f32) (truncf .bf16 x1 bitsLt_bf16_f32) (constant S5000x64 .f32 0x00000000#32)) (broadcastTo S5000x64 (shapeCast S1x64 x2 shapeCasts_S1x64_S1x64) broadcasts_S1x64_S5000x64) j = _
  rw [shapeCast_self x0]
  exact congrArg₂ (· + ·) (prod_apply (truncf .bf16 x0 bitsLt_bf16_f32) (truncf .bf16 x1 bitsLt_bf16_f32) j) (row_apply x2 j)

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's blocks move down the rows together,
    the weight and the added row stay whole. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 ∧ win2_3.index t (1 : Fin 2) = 0 :=
  (by decide +kernel : ∀ t : Fin grid2.N, _)

/-- Every block of rows is some grid point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- The left operand's block at a point, at an entry, is the array's entry 5000 · (block index) rows further down. -/
theorem blk0_read (c : Dev nD) (t : Fin cfg2.N) (y : S5000x32.Idx) (i : S50000x32.Idx)
    (h0 : win2_0.index t (0 : Fin 2) * 5000 + 1 * (y 0).val = (i 0).val)
    (h1 : win2_0.index t (1 : Fin 2) * 32 + 1 * (y 1).val = (i 1).val) :
    (iblk2 V c 0 t : FVec Ideal S5000x32 .f32) y = V c main_v71 i := by
  unfold iblk2
  rw [View.read_apply]
  show V c main_v71 (((cfg2.win 0).blk t).view.emb y) = V c main_v71 i
  refine congrArg (V c main_v71) (funext fun a => Fin.ext ?_)
  match a with
  | ⟨0, _⟩ => exact h0
  | ⟨1, _⟩ => exact h1
/-- The weight's block is the whole weight. -/
theorem blk1_read (c : Dev nD) (t : Fin cfg2.N) (y : S32x64.Idx) (i : S32x64.Idx)
    (h0 : win2_1.index t (0 : Fin 2) * 32 + 1 * (y 0).val = (i 0).val)
    (h1 : win2_1.index t (1 : Fin 2) * 64 + 1 * (y 1).val = (i 1).val) :
    (iblk2 V c 1 t : FVec Ideal S32x64 .f32) y = V c main_arg7 i := by
  unfold iblk2
  rw [View.read_apply]
  show V c main_arg7 (((cfg2.win 1).blk t).view.emb y) = V c main_arg7 i
  refine congrArg (V c main_arg7) (funext fun a => Fin.ext ?_)
  match a with
  | ⟨0, _⟩ => exact h0
  | ⟨1, _⟩ => exact h1
/-- The added row's block is the whole row. -/
theorem blk2_read (c : Dev nD) (t : Fin cfg2.N) (y : S1x64.Idx) (i : S1x64.Idx)
    (h0 : win2_2.index t (0 : Fin 2) * 1 + 1 * (y 0).val = (i 0).val)
    (h1 : win2_2.index t (1 : Fin 2) * 64 + 1 * (y 1).val = (i 1).val) :
    (iblk2 V c 2 t : FVec Ideal S1x64 .f32) y = V c main_v73 i := by
  unfold iblk2
  rw [View.read_apply]
  show V c main_v73 (((cfg2.win 2).blk t).view.emb y) = V c main_v73 i
  refine congrArg (V c main_v73) (funext fun a => Fin.ext ?_)
  match a with
  | ⟨0, _⟩ => exact h0
  | ⟨1, _⟩ => exact h1

/-- What point `t` writes back is block `t` of the layer's function of the arrays as the layer finds them. -/
theorem flushed_eq (c : Dev nD) (t : Fin cfg2.N) :
    (dat2 V c).flushed 3 t = ((cfg2.win 3).blk t).view.read (Elt Ideal) (lin (V c main_v71) (V c main_arg7) (V c main_v73)) := by
  show (cfg2.win 3).cut (grid2.coords t) ((dat2 V c).after 3 t) = _
  rw [after2_3]
  unfold out2_3
  rw [View.canon_unit_zero hz]
  simp only [View.ld_unit_zero (S := S5000x32) hz, View.ld_unit_zero (S := S32x64) hz, View.ld_unit_zero (S := S1x64) hz]
  obtain ⟨e0, e1, e2, e3, e4, e5, e6, e7⟩ := idx_facts t
  funext j
  show k2_pay1 (F := Ideal) (iblk2 V c 0 t) (iblk2 V c 1 t) (iblk2 V c 2 t) j
    = lin (V c main_v71) (V c main_arg7) (V c main_v73) (((cfg2.win 3).blk t).view.emb j)
  refine (stored_apply (iblk2 V c 0 t) (iblk2 V c 1 t) (iblk2 V c 2 t) j).trans ?_
  unfold lin
  have hj0 : (j 0).val < 5000 := (j 0).isLt
  have hj1 : (j 1).val < 64 := (j 1).isLt
  have r0 : ((((cfg2.win 3).blk t).view.emb j) 0).val = win2_3.index t (0 : Fin 2) * 5000 + 1 * (j 0).val := rfl
  have r1 : ((((cfg2.win 3).blk t).view.emb j) 1).val = win2_3.index t (1 : Fin 2) * 64 + 1 * (j 1).val := rfl
  refine congrArg₂ (· + ·) (Finset.sum_congr rfl fun k _ => congrArg₂ (· * ·) ?_ ?_) ?_
  · refine blk0_read V c t (lrowB j k) (lrow (((cfg2.win 3).blk t).view.emb j) k) ?_ ?_
    · show win2_0.index t (0 : Fin 2) * 5000 + 1 * (j 0).val = ((((cfg2.win 3).blk t).view.emb j) 0).val
      rw [r0, e0]
    · show win2_0.index t (1 : Fin 2) * 32 + 1 * k.val = k.val
      rw [e1]; omega
  · refine blk1_read V c t (wcolB j k) (wcol (((cfg2.win 3).blk t).view.emb j) k) ?_ ?_
    · show win2_1.index t (0 : Fin 2) * 32 + 1 * k.val = k.val
      rw [e2]; omega
    · show win2_1.index t (1 : Fin 2) * 64 + 1 * (j 1).val = ((((cfg2.win 3).blk t).view.emb j) 1).val
      rw [r1, e3, e7]
  · refine blk2_read V c t (bcolB j) (bcol (((cfg2.win 3).blk t).view.emb j)) ?_ ?_
    · show win2_2.index t (0 : Fin 2) * 1 + 1 * 0 = 0
      rw [e4]
    · show win2_2.index t (1 : Fin 2) * 64 + 1 * (j 1).val = ((((cfg2.win 3).blk t).view.emb j) 1).val
      rw [r1, e5, e7]

/-- An entry of the output array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v74).slice (win2_3.rect t)).set ↔ _
  rw [View.set_slice_whole, Rect.mem_set_unit]
  exact Iff.rfl

/-- Row r lies in the block of the point whose block index is r / 5000. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the layer is the layer's function of the arrays it was entered with. -/
theorem final (c : Dev nD) :
    (dat2 V c).arrAt 3 cfg2.N = lin (V c main_v71) (V c main_arg7) (V c main_v73) :=
  (dat2 V c).arrAt_eq_of_cover 3 (lin (V c main_v71) (V c main_arg7) (V c main_v73)) (fun t _ => flushed_eq V c t) cover

end Blocks

end Cert.KernelIdeal.Layer2

end
-- ==== Proof.Norms.lean ====
/-
  The reference recomputes the edge normalisation in each of its three convolutions, by the same operations of the same
  two arguments: the three terms are one.
-/
import proofs.«104778_j50113678409912_2_alg».proof.Proof.Gen.ReferenceIdeal.Read

set_option maxRecDepth 16384

noncomputable section

namespace Cert.ReferenceIdeal.Norms

open Cert.ReferenceIdeal Cert.ReferenceIdeal.Read Idealize.ShloMosaic

theorem second (x1 : (⟨S2x800000, .i32⟩ : BufTy).Contents (Elt Ideal)) (x2 : (⟨S800000, .f32⟩ : BufTy).Contents (Elt Ideal)) :
    val_main_v73 (F := Ideal) x1 x2 = val_main_v32 (F := Ideal) x1 x2 := rfl
theorem third (x1 : (⟨S2x800000, .i32⟩ : BufTy).Contents (Elt Ideal)) (x2 : (⟨S800000, .f32⟩ : BufTy).Contents (Elt Ideal)) :
    val_main_v114 (F := Ideal) x1 x2 = val_main_v32 (F := Ideal) x1 x2 := rfl

end Cert.ReferenceIdeal.Norms

end
-- ==== Proof.Stage2.lean ====
/-
  The fold from the second layer's exit to the third layer's exit.

  Between the two layers the host gathers the previous layer's output rows at the edges' sources, scales each gathered row
  by the edge's normalisation, adds the scaled rows into their target nodes, adds the convolution's bias and clamps at
  zero: the operations the reference applies to its own matrix product, on values already shown equal to the
  reference's. The third layer then multiplies that array by its weight; its added row is zero, so its output is the reference's next matrix product.
-/
import proofs.«104778_j50113678409912_2_alg».proof.Proof.Stage1
import proofs.«104778_j50113678409912_2_alg».proof.Proof.Layer2
import proofs.«104778_j50113678409912_2_alg».proof.Proof.Norms

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-! ## Through the host stretch -/

theorem W8_normR (c : Dev nD) : W8 m ρ c (Proc.devRef .tc main_v31) = val_main_v73 (F := Ideal) (a1 m c) (a2 m c) :=
  (W8_norm m ρ c).trans (Cert.ReferenceIdeal.Norms.second _ _).symm

/-- The convolution before the clamp: gather, scale by the normalisation, add into the targets, add the bias. -/
theorem W9_pre (c : Dev nD) : W9 m ρ c (Proc.devRef .tc main_v70) = val_main_v89 (F := Ideal) (a0 m c) (a1 m c) (a2 m c) (a3 m c) (a4 m c) (a5 m c) (a6 m c) := by
  show StableHlo.after hostOps2 (W8 m ρ c) (Proc.devRef .tc main_v70) = _
  dsimp only [hostOps2]
  read_fold
  rw [W8_normR m ρ c, W8_row m ρ c, W8_col m ρ c, W8_out m ρ c, W8_arg6 m ρ c]
  rfl
/-- Clamped at zero. -/
theorem W10_act (c : Dev nD) : W10 m ρ c (Proc.devRef .tc main_v71) = val_main_v90 (F := Ideal) (a0 m c) (a1 m c) (a2 m c) (a3 m c) (a4 m c) (a5 m c) (a6 m c) := by
  have h := W9_pre m ρ c
  show StableHlo.after hostOps2_1 (W9 m ρ c) (Proc.devRef .tc main_v71) = _
  generalize W9 m ρ c = V1 at h ⊢
  have key : StableHlo.after hostOps2_1 V1 (Proc.devRef .tc main_v71)
      = maximumf (V1 (Proc.devRef .tc main_v70)) (broadcastInDim S50000x32 ![] bcast_S_S50000x32 (constant (F := Ideal) S_ .f32 0x00000000#32)) := by
    dsimp only [hostOps2_1]
    read_fold
    rfl
  rw [key, h]
  rfl

/-! ## At the third layer's entry -/

/-- The array the layer multiplies: the reference's second convolution, clamped at zero. -/
theorem W11_in (c : Dev nD) : W11 m ρ c (Proc.devRef .tc main_v71) = val_main_v90 (F := Ideal) (a0 m c) (a1 m c) (a2 m c) (a3 m c) (a4 m c) (a5 m c) (a6 m c) :=
  (StableHlo.after_of_forall_not_mem (b := Proc.devRef .tc main_v71) _ _ (by untouched)).trans (W10_act m ρ c)
theorem W11_w (c : Dev nD) : W11 m ρ c (Proc.devRef .tc main_arg7) = a7 m c :=
  (hop2 m ρ c main_arg7 (by untouched) (by untouched) (by untouched)).trans (W8_arg7 m ρ c)
/-- The row the layer adds is zero in every column. -/
theorem W11_zero (c : Dev nD) (y : S1x64.Idx) : @Eq EReal ((V11 m ρ c main_v73 : FVec Ideal S1x64 .f32) y) 0 := by
  have e : (V11 m ρ c main_v73 : FVec Ideal S1x64 .f32)
      = shapeCast S1x64 (broadcastInDim S64 ![] bcast_S_S64 (constant (F := Ideal) S_ .f32 0x00000000#32)) shapeCasts_S64_S1x64 := by
    show StableHlo.after hostOps2_2 (W10 m ρ c) (Proc.devRef .tc main_v73) = _
    generalize W10 m ρ c = V2
    dsimp only [hostOps2_2]
    read_fold
    rfl
  rw [e]
  show Ideal.ofBits .f32 0x00000000#32 = 0
  exact Ideal.ofBits_zero_f32

/-! ## At the third layer's exit -/

/-- The layer's output is the reference's matrix product of the same two arrays: the added row is zero. -/
theorem W12_out (c : Dev nD) : W12 m ρ c (Proc.devRef .tc main_v74) = val_main_v91 (F := Ideal) (a0 m c) (a1 m c) (a2 m c) (a3 m c) (a4 m c) (a5 m c) (a6 m c) (a7 m c) := by
  refine (W12_arr m ρ c 3).trans ((Layer2.final (V11 m ρ) c).trans ?_)
  have hx : V11 m ρ c main_v71 = val_main_v90 (F := Ideal) (a0 m c) (a1 m c) (a2 m c) (a3 m c) (a4 m c) (a5 m c) (a6 m c) := W11_in m ρ c
  have hw : V11 m ρ c main_arg7 = a7 m c := W11_w m ρ c
  rw [hx, hw, Layer2.lin_zero _ _ _ (W11_zero m ρ c)]
  funext j
  rw [val_main_v91_apply]
  rfl

theorem W12_norm (c : Dev nD) : W12 m ρ c (Proc.devRef .tc main_v31) = val_main_v32 (F := Ideal) (a1 m c) (a2 m c) :=
  (W12_of_ne m ρ c main_v31 (by decide)).trans ((hop2 m ρ c main_v31 (by untouched) (by untouched) (by untouched)).trans (W8_norm m ρ c))
theorem W12_row (c : Dev nD) : W12 m ρ c (Proc.devRef .tc main_v5) = val_main_v3 (F := Ideal) (a1 m c) :=
  (W12_of_ne m ρ c main_v5 (by decide)).trans ((hop2 m ρ c main_v5 (by untouched) (by untouched) (by untouched)).trans (W8_row m ρ c))
theorem W12_col (c : Dev nD) : W12 m ρ c (Proc.devRef .tc main_v6) = val_main_v6 (F := Ideal) (a1 m c) :=
  (W12_of_ne m ρ c main_v6 (by decide)).trans ((hop2 m ρ c main_v6 (by untouched) (by untouched) (by untouched)).trans (W8_col m ρ c))
theorem W12_arg0 (c : Dev nD) : W12 m ρ c (Proc.devRef .tc main_arg0) = a0 m c :=
  (W12_of_ne m ρ c main_arg0 (by decide)).trans ((hop2 m ρ c main_arg0 (by untouched) (by untouched) (by untouched)).trans (W8_arg0 m ρ c))
theorem W12_arg8 (c : Dev nD) : W12 m ρ c (Proc.devRef .tc main_arg8) = a8 m c :=
  (W12_of_ne m ρ c main_arg8 (by decide)).trans ((hop2 m ρ c main_arg8 (by untouched) (by untouched) (by untouched)).trans (W8_arg8 m ρ c))
theorem W12_arg9 (c : Dev nD) : W12 m ρ c (Proc.devRef .tc main_arg9) = a9 m c :=
  (W12_of_ne m ρ c main_arg9 (by decide)).trans ((hop2 m ρ c main_arg9 (by untouched) (by untouched) (by untouched)).trans (W8_arg9 m ρ c))
theorem W12_arg10 (c : Dev nD) : W12 m ρ c (Proc.devRef .tc main_arg10) = a10 m c :=
  (W12_of_ne m ρ c main_arg10 (by decide)).trans ((hop2 m ρ c main_arg10 (by untouched) (by untouched) (by untouched)).trans (W8_arg10 m ρ c))

end Cert.KernelIdeal.Fold

end
-- ==== Proof.Layer3.lean ====
/-
  The fourth linear layer as one function of the arrays it is entered with.

  The layer multiplies a [50000, 128] array by a [128, 64] weight and adds a [1, 64] row, ten blocks of 5000 rows at a
  time: block `t` of the output is the product of block `t` of the left operand with the whole weight, plus the row
  repeated down the block. Over the extended reals a change of float format is the identity and the matrix unit's
  product into a zero accumulator is the plain sum over the contracted axis, so an output entry depends only on its own row
  of the left operand and its own column of the weight and of the added row:
      out[r, c] = Σ_k x[r, k] · w[k, c] + b[0, c].
  The ten blocks tile the output's rows (row r lies in block r / 5000), so the whole output array is that function.
-/
import proofs.«104778_j50113678409912_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Cert.KernelIdeal Cert.KernelIdeal.Gen
open Idealize.ShloMosaic Idealize.ShloMosaic.TcCoe Idealize.SL.Sem
open Idealize.ShloMosaic.Pipeline (Dat)

/-! ## The layer's function -/

/-- Entry (r, k) of the left operand, for the output entry `i` = (r, c). -/
abbrev lrow (i : S50000x64.Idx) (k : Fin 128) : S50000x128.Idx := fun a => match a with
  | ⟨0, _⟩ => ⟨(i 0).val, (i 0).isLt⟩
  | ⟨1, _⟩ => ⟨k.val, k.isLt⟩
/-- Entry (k, c) of the weight. -/
abbrev wcol (i : S50000x64.Idx) (k : Fin 128) : S128x64.Idx := fun a => match a with
  | ⟨0, _⟩ => ⟨k.val, k.isLt⟩
  | ⟨1, _⟩ => ⟨(i 1).val, (i 1).isLt⟩
/-- Entry (0, c) of the added row. -/
abbrev bcol (i : S50000x64.Idx) : S1x64.Idx := fun a => match a with
  | ⟨0, _⟩ => ⟨0, Nat.one_pos⟩
  | ⟨1, _⟩ => ⟨(i 1).val, (i 1).isLt⟩

/-- out[r, c] = Σ_k x[r, k] · w[k, c] + b[0, c]. -/
def lin (X : FVec Ideal S50000x128 .f32) (Wt : FVec Ideal S128x64 .f32) (B : FVec Ideal S1x64 .f32) : FVec Ideal S50000x64 .f32 :=
  fun i => (∑ k : Fin 128, X (lrow i k) * Wt (wcol i k)) + B (bcol i)

/-- The layer's function at an entry. -/
theorem lin_apply (X : FVec Ideal S50000x128 .f32) (Wt : FVec Ideal S128x64 .f32) (B : FVec Ideal S1x64 .f32) (i : S50000x64.Idx) :
    lin X Wt B i = (∑ k : Fin 128, X (lrow i k) * Wt (wcol i k)) + B (bcol i) := rfl

/-- With a zero row added the layer is the plain product: x + 0 = x on the extended reals. -/
theorem lin_zero (X : FVec Ideal S50000x128 .f32) (Wt : FVec Ideal S128x64 .f32) (B : FVec Ideal S1x64 .f32) (hB : ∀ y, B y = 0) :
    lin X Wt B = fun i => ∑ k : Fin 128, X (lrow i k) * Wt (wcol i k) := by
  funext i
  rw [lin_apply, hB, add_zero]

/-! ## One block: the body's stored value at an index -/

/-- The same three entries inside one block of 5000 rows. -/
abbrev lrowB (j : S5000x64.Idx) (k : Fin 128) : S5000x128.Idx := fun a => match a with
  | ⟨0, _⟩ => ⟨(j 0).val, (j 0).isLt⟩
  | ⟨1, _⟩ => ⟨k.val, k.isLt⟩
abbrev wcolB (j : S5000x64.Idx) (k : Fin 128) : S128x64.Idx := fun a => match a with
  | ⟨0, _⟩ => ⟨k.val, k.isLt⟩
  | ⟨1, _⟩ => ⟨(j 1).val, (j 1).isLt⟩
abbrev bcolB (j : S5000x64.Idx) : S1x64.Idx := fun a => match a with
  | ⟨0, _⟩ => ⟨0, Nat.one_pos⟩
  | ⟨1, _⟩ => ⟨(j 1).val, (j 1).isLt⟩

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix unit's product of two blocks into a zero accumulator, at an entry: the sum over the contracted axis. -/
theorem prod_apply (a : FVec Ideal S5000x128 .bf16) (b : FVec Ideal S128x64 .bf16) (j : S5000x64.Idx) :
    matmul dot_S5000x128_S128x64_S5000x64_1_0_0_1_n_n none a b (constant S5000x64 .f32 0x00000000#32) j
      = ∑ k : Fin 128, a (lrowB j k) * b (wcolB j k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lrowB j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = wcolB j k := funext fun a => Fin.ext (by
    match a with
    | ⟨0, _⟩ => exact (rhs_0 _ _).trans hk
    | ⟨1, _⟩ => exact rhs_1 _ _)
  rw [el, er]

/-- The [1, 64] row repeated down a block, at an entry: the row's entry in that column. -/
theorem row_apply (x2 : FVec Ideal S1x64 .f32) (j : S5000x64.Idx) :
    broadcastTo S5000x64 (shapeCast S1x64 x2 shapeCasts_S1x64_S1x64) broadcasts_S1x64_S5000x64 j = x2 (bcolB j) := by
  rw [shapeCast_self]
  exact broadcastTo_apply x2 broadcasts_S1x64_S5000x64 j (bcolB j) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- What the body stores, at an entry of the block: the product's sum plus the row's entry. -/
theorem stored_apply (x0 : FVec Ideal S5000x128 .f32) (x1 : FVec Ideal S128x64 .f32) (x2 : FVec Ideal S1x64 .f32) (j : S5000x64.Idx) :
    k3_pay1 (F := Ideal) x0 x1 x2 j = (∑ k : Fin 128, x0 (lrowB j k) * x1 (wcolB j k)) + x2 (bcolB j) := by
  unfold k3_pay1
  show addf (matmul dot_S5000x128_S128x64_S5000x64_1_0_0_1_n_n none (truncf .bf16 (shapeCast S5000x128 x0 shapeCasts_S5000x128_S5000x128) bitsLt_bf16_f32) (truncf .bf16 x1 bitsLt_bf16_f32) (constant S5000x64 .f32 0x00000000#32)) (broadcastTo S5000x64 (shapeCast S1x64 x2 shapeCasts_S1x64_S1x64) broadcasts_S1x64_S5000x64) j = _
  rw [shapeCast_self x0]
  exact congrArg₂ (· + ·) (prod_apply (truncf .bf16 x0 bitsLt_bf16_f32) (truncf .bf16 x1 bitsLt_bf16_f32) j) (row_apply x2 j)

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's blocks move down the rows together,
    the weight and the added row stay whole. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 9 ∧ win3_3.index t (1 : Fin 2) = 0 :=
  (by decide +kernel : ∀ t : Fin grid3.N, _)

/-- Every block of rows is some grid point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- The left operand's block at a point, at an entry, is the array's entry 5000 · (block index) rows further down. -/
theorem blk0_read (c : Dev nD) (t : Fin cfg3.N) (y : S5000x128.Idx) (i : S50000x128.Idx)
    (h0 : win3_0.index t (0 : Fin 2) * 5000 + 1 * (y 0).val = (i 0).val)
    (h1 : win3_0.index t (1 : Fin 2) * 128 + 1 * (y 1).val = (i 1).val) :
    (iblk3 V c 0 t : FVec Ideal S5000x128 .f32) y = V c main_v92 i := by
  unfold iblk3
  rw [View.read_apply]
  show V c main_v92 (((cfg3.win 0).blk t).view.emb y) = V c main_v92 i
  refine congrArg (V c main_v92) (funext fun a => Fin.ext ?_)
  match a with
  | ⟨0, _⟩ => exact h0
  | ⟨1, _⟩ => exact h1
/-- The weight's block is the whole weight. -/
theorem blk1_read (c : Dev nD) (t : Fin cfg3.N) (y : S128x64.Idx) (i : S128x64.Idx)
    (h0 : win3_1.index t (0 : Fin 2) * 128 + 1 * (y 0).val = (i 0).val)
    (h1 : win3_1.index t (1 : Fin 2) * 64 + 1 * (y 1).val = (i 1).val) :
    (iblk3 V c 1 t : FVec Ideal S128x64 .f32) y = V c main_arg9 i := by
  unfold iblk3
  rw [View.read_apply]
  show V c main_arg9 (((cfg3.win 1).blk t).view.emb y) = V c main_arg9 i
  refine congrArg (V c main_arg9) (funext fun a => Fin.ext ?_)
  match a with
  | ⟨0, _⟩ => exact h0
  | ⟨1, _⟩ => exact h1
/-- The added row's block is the whole row. -/
theorem blk2_read (c : Dev nD) (t : Fin cfg3.N) (y : S1x64.Idx) (i : S1x64.Idx)
    (h0 : win3_2.index t (0 : Fin 2) * 1 + 1 * (y 0).val = (i 0).val)
    (h1 : win3_2.index t (1 : Fin 2) * 64 + 1 * (y 1).val = (i 1).val) :
    (iblk3 V c 2 t : FVec Ideal S1x64 .f32) y = V c main_v93 i := by
  unfold iblk3
  rw [View.read_apply]
  show V c main_v93 (((cfg3.win 2).blk t).view.emb y) = V c main_v93 i
  refine congrArg (V c main_v93) (funext fun a => Fin.ext ?_)
  match a with
  | ⟨0, _⟩ => exact h0
  | ⟨1, _⟩ => exact h1

/-- What point `t` writes back is block `t` of the layer's function of the arrays as the layer finds them. -/
theorem flushed_eq (c : Dev nD) (t : Fin cfg3.N) :
    (dat3 V c).flushed 3 t = ((cfg3.win 3).blk t).view.read (Elt Ideal) (lin (V c main_v92) (V c main_arg9) (V c main_v93)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  show k3_pay1 (F := Ideal) (iblk3 V c 0 t) (iblk3 V c 1 t) (iblk3 V c 2 t) j
    = lin (V c main_v92) (V c main_arg9) (V c main_v93) (((cfg3.win 3).blk t).view.emb j)
  refine (stored_apply (iblk3 V c 0 t) (iblk3 V c 1 t) (iblk3 V c 2 t) j).trans ?_
  unfold lin
  have hj0 : (j 0).val < 5000 := (j 0).isLt
  have hj1 : (j 1).val < 64 := (j 1).isLt
  have r0 : ((((cfg3.win 3).blk t).view.emb j) 0).val = win3_3.index t (0 : Fin 2) * 5000 + 1 * (j 0).val := rfl
  have r1 : ((((cfg3.win 3).blk t).view.emb j) 1).val = win3_3.index t (1 : Fin 2) * 64 + 1 * (j 1).val := rfl
  refine congrArg₂ (· + ·) (Finset.sum_congr rfl fun k _ => congrArg₂ (· * ·) ?_ ?_) ?_
  · refine blk0_read V c t (lrowB j k) (lrow (((cfg3.win 3).blk t).view.emb j) k) ?_ ?_
    · show win3_0.index t (0 : Fin 2) * 5000 + 1 * (j 0).val = ((((cfg3.win 3).blk t).view.emb j) 0).val
      rw [r0, e0]
    · show win3_0.index t (1 : Fin 2) * 128 + 1 * k.val = k.val
      rw [e1]; omega
  · refine blk1_read V c t (wcolB j k) (wcol (((cfg3.win 3).blk t).view.emb j) k) ?_ ?_
    · show win3_1.index t (0 : Fin 2) * 128 + 1 * k.val = k.val
      rw [e2]; omega
    · show win3_1.index t (1 : Fin 2) * 64 + 1 * (j 1).val = ((((cfg3.win 3).blk t).view.emb j) 1).val
      rw [r1, e3, e7]
  · refine blk2_read V c t (bcolB j) (bcol (((cfg3.win 3).blk t).view.emb j)) ?_ ?_
    · show win3_2.index t (0 : Fin 2) * 1 + 1 * 0 = 0
      rw [e4]
    · show win3_2.index t (1 : Fin 2) * 64 + 1 * (j 1).val = ((((cfg3.win 3).blk t).view.emb j) 1).val
      rw [r1, e5, e7]

/-- An entry of the output array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v94).slice (win3_3.rect t)).set ↔ _
  rw [View.set_slice_whole, Rect.mem_set_unit]
  exact Iff.rfl

/-- Row r lies in the block of the point whose block index is r / 5000. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the layer is the layer's function of the arrays it was entered with. -/
theorem final (c : Dev nD) :
    (dat3 V c).arrAt 3 cfg3.N = lin (V c main_v92) (V c main_arg9) (V c main_v93) :=
  (dat3 V c).arrAt_eq_of_cover 3 (lin (V c main_v92) (V c main_arg9) (V c main_v93)) (fun t _ => flushed_eq V c t) cover

end Blocks

end Cert.KernelIdeal.Layer3

end
-- ==== Proof.Stage3.lean ====
/-
  The fold from the third layer's exit to the fourth layer's exit.

  Between the two layers the host gathers the previous layer's output rows at the edges' sources, scales each gathered row
  by the edge's normalisation, adds the scaled rows into their target nodes, adds the convolution's bias and clamps at
  zero, then joins the node features and the result side by side: the operations the reference applies to its own matrix product, on values already shown equal to the
  reference's. The fourth layer then multiplies that array by its weight and adds the last argument to every row: the reference's result.
-/
import proofs.«104778_j50113678409912_2_alg».proof.Proof.Stage2
import proofs.«104778_j50113678409912_2_alg».proof.Proof.Layer3
import proofs.«104778_j50113678409912_2_alg».proof.Proof.Norms

set_option maxRecDepth 16384

noncomputable section

namespace Cert.KernelIdeal.Fold

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-! ## Through the host stretch -/

theorem W12_normR (c : Dev nD) : W12 m ρ c (Proc.devRef .tc main_v31) = val_main_v114 (F := Ideal) (a1 m c) (a2 m c) :=
  (W12_norm m ρ c).trans (Cert.ReferenceIdeal.Norms.third _ _).symm

/-- The convolution before the clamp: gather, scale by the normalisation, add into the targets, add the bias. -/
theorem W13_pre (c : Dev nD) : W13 m ρ c (Proc.devRef .tc main_v90) = val_main_v130 (F := Ideal) (a0 m c) (a1 m c) (a2 m c) (a3 m c) (a4 m c) (a5 m c) (a6 m c) (a7 m c) (a8 m c) := by
  show StableHlo.after hostOps3 (W12 m ρ c) (Proc.devRef .tc main_v90) = _
  dsimp only [hostOps3]
  read_fold
  rw [W12_normR m ρ c, W12_row m ρ c, W12_col m ρ c, W12_out m ρ c, W12_arg8 m ρ c]
  rfl
/-- Clamped at zero. -/
theorem W14_act (c : Dev nD) : W14 m ρ c (Proc.devRef .tc main_v91) = val_main_v131 (F := Ideal) (a0 m c) (a1 m c) (a2 m c) (a3 m c) (a4 m c) (a5 m c) (a6 m c) (a7 m c) (a8 m c) := by
  have h := W13_pre m ρ c
  show StableHlo.after hostOps3_1 (W13 m ρ c) (Proc.devRef .tc main_v91) = _
  generalize W13 m ρ c = V1 at h ⊢
  have key : StableHlo.after hostOps3_1 V1 (Proc.devRef .tc main_v91)
      = maximumf (V1 (Proc.devRef .tc main_v90)) (broadcastInDim S50000x64 ![] bcast_S_S50000x64 (constant (F := Ideal) S_ .f32 0x00000000#32)) := by
    dsimp only [hostOps3_1]
    read_fold
    rfl
  rw [key, h]
  rfl

/-! ## At the fourth layer's entry -/

/-- The array the last layer multiplies: the node features beside the third convolution's output. -/
theorem W15_in (c : Dev nD) : W15 m ρ c (Proc.devRef .tc main_v92) = val_main_v132 (F := Ideal) (a0 m c) (a1 m c) (a2 m c) (a3 m c) (a4 m c) (a5 m c) (a6 m c) (a7 m c) (a8 m c) := by
  have h91 := W14_act m ρ c
  have h0 : W14 m ρ c (Proc.devRef .tc main_arg0) = a0 m c :=
    (StableHlo.after_of_forall_not_mem (b := Proc.devRef .tc main_arg0) _ _ (by untouched)).trans ((StableHlo.after_of_forall_not_mem (b := Proc.devRef .tc main_arg0) _ _ (by untouched)).trans (W12_arg0 m ρ c))
  show StableHlo.after hostOps3_2 (W14 m ρ c) (Proc.devRef .tc main_v92) = _
  generalize W14 m ρ c = V1 at h91 h0 ⊢
  dsimp only [hostOps3_2]
  read_fold
  rw [h91, h0]
  rfl
theorem W15_w (c : Dev nD) : W15 m ρ c (Proc.devRef .tc main_arg9) = a9 m c :=
  (hop3 m ρ c main_arg9 (by untouched) (by untouched) (by untouched)).trans (W12_arg9 m ρ c)
/-- The row the last layer adds is the last argument, laid out as one row. -/
theorem W15_bias (c : Dev nD) (y : S1x64.Idx) :
    @Eq EReal ((V15 m ρ c main_v93 : FVec Ideal S1x64 .f32) y) ((a10 m c : FVec Ideal S64 .f32) (idx_main_v134 y)) := by
  have h10 : W14 m ρ c (Proc.devRef .tc main_arg10) = a10 m c :=
    (StableHlo.after_of_forall_not_mem (b := Proc.devRef .tc main_arg10) _ _ (by untouched)).trans ((StableHlo.after_of_forall_not_mem (b := Proc.devRef .tc main_arg10) _ _ (by untouched)).trans (W12_arg10 m ρ c))
  have e : (V15 m ρ c main_v93 : FVec Ideal S1x64 .f32)
      = shapeCast S1x64 (a10 m c : FVec Ideal S64 .f32) shapeCasts_S64_S1x64 := by
    show StableHlo.after hostOps3_2 (W14 m ρ c) (Proc.devRef .tc main_v93) = _
    generalize W14 m ρ c = V1 at h10 ⊢
    dsimp only [hostOps3_2]
    read_fold
    rw [h10]
    rfl
  rw [e]
  have hy0 : (y 0).val < 1 := (y 0).isLt
  exact shapeCast_apply (a10 m c : FVec Ideal S64 .f32) shapeCasts_S64_S1x64 y (idx_main_v134 y)
    (by show (S64.rowMajor (idx_main_v134 y)).val = (S1x64.rowMajor y).val; rewrite [Shape.rowMajor_val_one, Shape.rowMajor_val_two]; show (y 1).val = (y 0).val * 64 + (y 1).val; omega)

/-! ## At the fourth layer's exit -/

/-- The last layer's output is the reference's result: the product of the concatenated features with the last weight,
    plus the last argument in every row. -/
theorem W16_out (c : Dev nD) : W16 m ρ c (Proc.devRef .tc main_v94) = val_main_v136 (F := Ideal) (a0 m c) (a1 m c) (a2 m c) (a3 m c) (a4 m c) (a5 m c) (a6 m c) (a7 m c) (a8 m c) (a9 m c) (a10 m c) := by
  refine (W16_arr m ρ c 3).trans ((Layer3.final (V15 m ρ) c).trans ?_)
  have hx : V15 m ρ c main_v92 = val_main_v132 (F := Ideal) (a0 m c) (a1 m c) (a2 m c) (a3 m c) (a4 m c) (a5 m c) (a6 m c) (a7 m c) (a8 m c) := W15_in m ρ c
  have hw : V15 m ρ c main_arg9 = a9 m c := W15_w m ρ c
  rw [hx, hw]
  funext j
  rw [Layer3.lin_apply, W15_bias, val_main_v136_apply, val_main_v133_apply, val_main_v135_apply, val_main_v134_apply]
  rfl

end Cert.KernelIdeal.Fold

end
-- ==== Proof.lean ====
/-
  Three graph convolutions and a linear head, with the four matrix products tiled by rows, against the same network
  written with whole matrix products.

  Both programs build the same index vectors and the same edge normalisation from the edge list and the edge weights, and
  both gather, scale, scatter-add, add the bias and clamp at zero by the same operations. They differ in three places. The
  kernel computes each matrix product ten row blocks at a time, through a change of float format and the matrix unit, and
  adds a zero row to the first three; the reference multiplies whole arrays. Over the extended reals a change of format is
  the identity, the matrix unit's product into a zero accumulator is the plain sum over the contracted axis, the blocks
  tile the rows, and x + 0 = x: each tiled layer is the whole product. The kernel computes the edge normalisation once;
  the reference recomputes it, identically, in each convolution. So both results are one function of the arguments, and no
  step needs the arguments to be finite.
-/
import proofs.«104778_j50113678409912_2_alg».proof.Defs
import proofs.«104778_j50113678409912_2_alg».proof.Proof.Gen.Kernel
import proofs.«104778_j50113678409912_2_alg».proof.Proof.Gen.Kernel.Frame
import proofs.«104778_j50113678409912_2_alg».proof.Proof.Gen.KernelIdeal
import proofs.«104778_j50113678409912_2_alg».proof.Proof.Gen.KernelIdeal.Frame
import proofs.«104778_j50113678409912_2_alg».proof.Proof.Gen.ReferenceIdeal
import proofs.«104778_j50113678409912_2_alg».proof.Proof.Gen.ReferenceIdeal.Run
import proofs.«104778_j50113678409912_2_alg».proof.Proof.Gen.ReferenceIdeal.Read
import proofs.«104778_j50113678409912_2_alg».proof.Proof.Gen.Pre_finite_inputs
import proofs.«104778_j50113678409912_2_alg».proof.Proof.WholeRun
import proofs.«104778_j50113678409912_2_alg».proof.Proof.Stage3
import Idealize.ShloMosaic.Adequacy
import Idealize.ShloMosaic.Init

set_option maxRecDepth 16384

noncomputable section

namespace Cert.Proof

open Idealize.ShloMosaic Idealize.SL.Sem

/-- Each program runs to the end, nothing faulting, and leaves its arguments as launched. -/
theorem frame_kernel : Cert.frame_Kernel (hKernel := Cert.Kernel.Gen.facts) (hPre_finite_inputs := Cert.Pre_finite_inputs.Gen.facts) :=
  fun m ρ _ => Cert.Kernel.Gen.frame m ρ
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's result function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Fold.W16_out m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v136_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
